-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S9x128 : Shape := ⟨2, ![9, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x3 .f32) (main_arg11 : FVec F S3 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x3 .f32 := Host.absf main_arg10
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x3 .f32) (main_arg11 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x9 .f32) (main_arg1 : IVec S2x1600000 32) (main_arg2 : FVec F S9x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x3 .f32) (main_arg11 : FVec F S3 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S9x128 .f32 := Host.absf main_arg2
  let main_cst_0 : FVec F S_ .f32 := constant S_ .f32 0x7F800000#32
  let main_v5 : FVec F S9x128 .f32 := broadcastInDim S9x128 ![] bcast_S_S9x128 main_cst_0
  let main_v6 : IVec S9x128 1 := cmpf .olt main_v4 main_v5
  let main_c_1 : IVec S_ 1 := constantI S_ 1 1#1
  let main_v7 : IVec S_ 1 := (fun x v => Host.reduce IntOp.andi x v reducesTo_S9x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x9 : Shape := ⟨2, ![100000, 9]⟩
abbrev S2x1600000 : Shape := ⟨2, ![2, 1600000]⟩
abbrev S9x128 : Shape := ⟨2, ![9, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S5000x9 : Shape := ⟨2, ![5000, 9]⟩
abbrev S5000x128 : Shape := ⟨2, ![5000, 128]⟩
abbrev S1700000x128 : Shape := ⟨2, ![1700000, 128]⟩
abbrev S100000x1 : Shape := ⟨2, ![100000, 1]⟩
abbrev S1x3 : Shape := ⟨2, ![1, 3]⟩
abbrev S100000x3 : Shape := ⟨2, ![100000, 3]⟩
abbrev S5000x1 : Shape := ⟨2, ![5000, 1]⟩
abbrev S5000x3 : Shape := ⟨2, ![5000, 3]⟩

abbrev nBuf : Space → Nat
  | .hbm => 114
  | .vmem => 44
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S9x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x3, .f32⟩
  | .hbm, ⟨11, _⟩ => ⟨S3, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x128, .f32⟩
  | .hbm, ⟨102, _⟩ => ⟨S1700000x1, .f32⟩
  | .hbm, ⟨103, _⟩ => ⟨S1700000x128, .f32⟩
  | .hbm, ⟨104, _⟩ => ⟨S1700000x128, .f32⟩
  | .hbm, ⟨105, _⟩ => ⟨S_, .f32⟩
  | .hbm, ⟨106, _⟩ => ⟨S100000x128, .f32⟩
  | .hbm, ⟨107, _⟩ => ⟨S1700000x1, .i32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x1, .f32⟩
  | .hbm, ⟨112, _⟩ => ⟨S1x3, .f32⟩
  | .hbm, ⟨113, _⟩ => ⟨S100000x3, .f32⟩
  | .local _ .vmem, ⟨0, _⟩ => ⟨S5000x9, .f32⟩
  | .local _ .vmem, ⟨1, _⟩ => ⟨S5000x9, .f32⟩
  | .local _ .vmem, ⟨2, _⟩ => ⟨S9x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x3, .f32⟩
  | .local _ .vmem, ⟨39, _⟩ => ⟨S1x3, .f32⟩
  | .local _ .vmem, ⟨40, _⟩ => ⟨S5000x1, .f32⟩
  | .local _ .vmem, ⟨41, _⟩ => ⟨S5000x1, .f32⟩
  | .local _ .vmem, ⟨42, _⟩ => ⟨S5000x3, .f32⟩
  | .local _ .vmem, ⟨43, _⟩ => ⟨S5000x3, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg3_1 : Ref sig .tc := ⟨.vmem, 41, rfl⟩
abbrev cc7_stg4_0 : Ref sig .tc := ⟨.vmem, 42, rfl⟩
abbrev cc7_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem3_1 : DmaSem sig := 41
abbrev cc7_sem4_0 : DmaSem sig := 42
abbrev cc7_sem4_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x3 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x3 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x3 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x9_S5000x9_0_0 : ∀ a, (![0, 0] : Fin 2 → Nat) a + S5000x9.size a ≤ S5000x9.size a
  h_S5000x9 : 0 < S5000x9.numel
  bitsLt_bf16_f32 : FTy.bits .bf16 < FTy.bits .f32
  inb_S9x128_S9x128_0_0 : ∀ a, (![0, 0] : Fin 2 → Nat) a + S9x128.size a ≤ S9x128.size a
  h_S9x128 : 0 < S9x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S100000x9_S100000x1_0_3 : S100000x9.Slices ![0, 3] S100000x1
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x3 : S5000x1.Broadcasts S5000x3
  inb_S5000x3_S5000x3_0_0 : ∀ a, (![0, 0] : Fin 2 → Nat) a + S5000x3.size a ≤ S5000x3.size a
  h_S5000x3 : 0 < S5000x3.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x9_S9x128_S5000x128_1_0_0_1_n_n_wf : DotDims.WF S5000x9 S9x128 S5000x128 [1] [0] [0] [1] [] []
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S100000x9.size a
  hwx0_0 : ∀ i : grid0.Coords, EltTy.bits .f32 = 32 ∨ (Rect.block (s := S100000x9) S5000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .f32 = 32 ∨ (Rect.block (s := S9x128) S9x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x3.size a ≤ S128x3.size a
  hwx7_1 : ∀ i : grid7.Coords, EltTy.bits .f32 = 32 ∨ (Rect.block (s := S128x3) S128x3.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x3.size a ≤ S1x3.size a
  hwx7_2 : ∀ i : grid7.Coords, EltTy.bits .f32 = 32 ∨ (Rect.block (s := S1x3) S1x3.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x1.size a ≤ S100000x1.size a
  hwx7_3 : ∀ i : grid7.Coords, EltTy.bits .f32 = 32 ∨ (Rect.block (s := S100000x1) S5000x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x3.size a ≤ S100000x3.size a
  hwx7_4 : ∀ i : grid7.Coords, EltTy.bits .f32 = 32 ∨ (Rect.block (s := S100000x3) S5000x3.size (cc7_transform_4 i) (hinb7_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x9_S9x128_S5000x128_1_0_0_1_n_n : DotDims S5000x9 S9x128 S5000x128 where
  lhsContracting := [1]
  rhsContracting := [0]
  lhsNonContracting := [0]
  rhsNonContracting := [1]
  lhsBatch := []
  rhsBatch := []
  wf := dot_S5000x9_S9x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_arg0) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v79) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S128x3.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v81) S1x3.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v80) S5000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v82) S5000x3.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S9x128 : Shape := ⟨2, ![9, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1700000x128 : Shape := ⟨2, ![1700000, 128]⟩
abbrev S100000x3 : Shape := ⟨2, ![100000, 3]⟩
abbrev S1x3 : Shape := ⟨2, ![1, 3]⟩
abbrev S100000x1 : Shape := ⟨2, ![100000, 1]⟩

abbrev nBuf : Space → Nat
  | .hbm => 138
  | .vmem => 0
  | .smem => 0
  | _ => 0

abbrev hbmTy0_0 (i : Nat) : BufTy := match i % 128 with
  | 0 => ⟨S100000x9, .f32⟩
  | 1 => ⟨S2x1600000, .i32⟩
  | 2 => ⟨S9x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x3, .f32⟩
  | 11 => ⟨S3, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x128, .f32⟩
  | 92 => ⟨S1700000x1, .f32⟩
  | 93 => ⟨S1700000x128, .f32⟩
  | 94 => ⟨S1700000x128, .f32⟩
  | 95 => ⟨S_, .f32⟩
  | 96 => ⟨S100000x128, .f32⟩
  | 97 => ⟨S1700000x1, .i32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x9, .f32⟩

abbrev hbmTy0_1 (i : Nat) : BufTy := match i % 128 with
  | 0 => ⟨S100000x3, .f32⟩
  | 1 => ⟨S1x3, .f32⟩
  | 2 => ⟨S100000x3, .f32⟩
  | 3 => ⟨S100000x3, .f32⟩
  | 4 => ⟨S100000x1, .f32⟩
  | 5 => ⟨S_, .f32⟩
  | 6 => ⟨S100000x1, .f32⟩
  | 7 => ⟨S100000x1, .f32⟩
  | 8 => ⟨S100000x3, .f32⟩
  | 9 => ⟨S100000x3, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_v53 : Ref sig .tc := ⟨.hbm, 82, rfl⟩
abbrev main_c_9 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call3_cst : Ref sig .tc := ⟨.hbm, 102, rfl⟩
abbrev main_call3_v0 : Ref sig .tc := ⟨.hbm, 103, rfl⟩
abbrev main_v70 : Ref sig .tc := ⟨.hbm, 104, rfl⟩
abbrev main_v71 : Ref sig .tc := ⟨.hbm, 105, rfl⟩
abbrev main_c_12 : Ref sig .tc := ⟨.hbm, 106, rfl⟩
abbrev main_v72 : Ref sig .tc := ⟨.hbm, 107, rfl⟩
abbrev main_v73 : Ref sig .tc := ⟨.hbm, 108, rfl⟩
abbrev main_c_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_14 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call4_cst : Ref sig .tc := ⟨.hbm, 125, rfl⟩
abbrev main_call4_v0 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_15 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1700000x1_S1700000x128_0_1 : S1700000x1.BroadcastsInDim S1700000x128 (![0, 1] : Fin 2 → Fin S1700000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  slices_S100000x9_S100000x1_0_3 : S100000x9.Slices ![0, 3] S100000x1
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x9_S9x128_S100000x128_1_0_0_1_n_n_wf : DotDims.WF S100000x9 S9x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x3_S100000x3_1_0_0_1_n_n_wf : DotDims.WF S100000x128 S128x3 S100000x3 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x9_S9x128_S100000x128_1_0_0_1_n_n : DotDims S100000x9 S9x128 S100000x128 where
  lhsContracting := [1]
  rhsContracting := [0]
  lhsNonContracting := [0]
  rhsNonContracting := [1]
  lhsBatch := []
  rhsBatch := []
  wf := dot_S100000x9_S9x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.GcnSpec.lean ====
/-
  The mathematics of the graph network's dense stages, as whole-array functions over the extended reals.

  Every dense stage of the network acts on a node-feature matrix with 100000 rows, one row at a time:
    * `rowsTimes x w`      — the matrix product: entry (r, c) is the sum over k of x(r, k) · w(k, c);
    * `addRowRelu a b`     — a row vector b (kept as a 1 × C matrix) added to every row of a, then max(·, 0);
    * `encode x w b`       — addRowRelu (rowsTimes x w) b, the encoder;
    * `decode h w b mask`  — (rowsTimes h w + b) · (1 − mask(r)), the decoder with its per-row boundary mask.
  Row r of each result depends on row r of the node-feature operand only (and on all of w, b): that is what lets a
  computation that walks the rows in blocks of 5000 produce the same array as one that treats all rows at once.
  The literals 0 and 1 are kept as their binary32 words, so the same word appears on both sides of every equation.
-/
import Idealize.ShloMosaic.PureOps.Ideal
import Idealize.ShloMosaic.Lib.ValueIdx

noncomputable section

namespace Cert.Gcn

open Idealize.ShloMosaic Idealize.ShloMosaic.ValueIdx

/-- A matrix of extended reals with `a` rows and `b` columns. -/
abbrev Mat (a b : Nat) : Type := (⟨2, ![a, b]⟩ : Shape).Idx → Elt Ideal .f32

/-- The matrix product x · w: entry (r, c) is ∑ₖ x(r, k) · w(k, c). -/
def rowsTimes {n K C : Nat} (x : Mat n K) (w : Mat K C) : Mat n C :=
  fun i => ∑ k : Fin K, x (ix2 (n0 := n) (n1 := K) (i 0) k) * w (ix2 (n0 := K) (n1 := C) k (i 1))

theorem rowsTimes_ix2 {n K C : Nat} (x : Mat n K) (w : Mat K C) (r : Fin n) (c : Fin C) :
    rowsTimes x w (ix2 r c) = ∑ k : Fin K, x (ix2 r k) * w (ix2 k c) := rfl

/-- The row vector `b` added to every row of `a`, then the maximum with zero. -/
def addRowRelu {n C : Nat} (a : Mat n C) (b : Mat 1 C) : Mat n C :=
  fun i => max (a i + b (ix2 (n0 := 1) (n1 := C) 0 (i 1))) (Ideal.ofBits .f32 0x00000000#32)

theorem addRowRelu_ix2 {n C : Nat} (a : Mat n C) (b : Mat 1 C) (r : Fin n) (c : Fin C) :
    addRowRelu a b (ix2 r c) = max (a (ix2 r c) + b (ix2 0 c)) (Ideal.ofBits .f32 0x00000000#32) := rfl

/-- The encoder: relu (x · w + b). -/
def encode {n K C : Nat} (x : Mat n K) (w : Mat K C) (b : Mat 1 C) : Mat n C := addRowRelu (rowsTimes x w) b

theorem encode_ix2 {n K C : Nat} (x : Mat n K) (w : Mat K C) (b : Mat 1 C) (r : Fin n) (c : Fin C) :
    encode x w b (ix2 r c) = max ((∑ k : Fin K, x (ix2 r k) * w (ix2 k c)) + b (ix2 0 c)) (Ideal.ofBits .f32 0x00000000#32) := rfl

/-- The decoder: (h · w + b) scaled, row by row, by one minus the row's mask entry. -/
def decode {n K C : Nat} (h : Mat n K) (w : Mat K C) (b : Mat 1 C) (mask : Mat n 1) : Mat n C :=
  fun i => (rowsTimes h w i + b (ix2 (n0 := 1) (n1 := C) 0 (i 1)))
    * (Ideal.ofBits .f32 0x3F800000#32 - mask (ix2 (n0 := n) (n1 := 1) (i 0) 0))

theorem decode_ix2 {n K C : Nat} (h : Mat n K) (w : Mat K C) (b : Mat 1 C) (mask : Mat n 1) (r : Fin n) (c : Fin C) :
    decode h w b mask (ix2 r c) = (rowsTimes h w (ix2 r c) + b (ix2 0 c)) * (Ideal.ofBits .f32 0x3F800000#32 - mask (ix2 r 0)) := rfl

end Cert.Gcn

end
-- ==== Proof.RefStages.lean ====
/-
  The reference computation, stage by stage.

  The reference is one straight line of whole-array operations. Its result term is cut here into the stages of the
  network: the edge list with self-loops (`src`, `dst`), the node degrees and their inverse square roots (`deg`, `dinv`), the symmetric normalisation of the edges
  (`norm`), one round of message passing `agg` (gather the transformed features at each edge's source, scale by the edge's
  normalisation, add up at each edge's destination), and the four dense stages `enc`, `lin`, `act`, `dec`. `out` is
  their composition, three graph layers between the encoder and the decoder, and the reference run's result term is
  `out` of the argument arrays (`res_eq`, by unfolding).
  Over the extended reals each dense stage is the whole-array function of the same name in the specification
  (`enc_eq`, `lin_eq`, `act_eq`, `dec_eq`): a host matrix product read at an entry is the sum over the contracted
  axis, a broadcast row or column read at an entry is the row's or column's entry, and relu is the maximum with zero.
-/
import proofs.«159549_j78486232367508_1_alg».proof.Proof.RefRunPatched
import proofs.«159549_j78486232367508_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.Stages

open Cert.ReferenceIdeal Cert.ReferenceIdeal.Gen

section AnyInstance
variable {F : FTy → Type} [FloatOps F]

/-- The sources of the edges, the self-loops appended. -/
def src (x1 : (⟨S2x1600000, .i32⟩ : BufTy).Contents (Elt F)) : (⟨S1700000, .i32⟩ : BufTy).Contents (Elt F) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The destinations of the edges, the self-loops appended. -/
def dst (x1 : (⟨S2x1600000, .i32⟩ : BufTy).Contents (Elt F)) : (⟨S1700000, .i32⟩ : BufTy).Contents (Elt F) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- The degree of every node: ones added up at the edges' destinations. -/
def deg (x1 : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dst x1)) (broadcastInDim S1700000 ![] bcast_S_S1700000 (constant S_ .f32 0x3F800000#32))

/-- The inverse square root of the degree where the degree is positive, zero elsewhere. -/
def dinv (x1 : (⟨S2x1600000, .i32⟩ : BufTy).Contents (Elt F)) : (⟨S100000, .f32⟩ : BufTy).Contents (Elt F) :=
  select (cmpf (F := F) .ogt (deg x1) (broadcastInDim S100000 ![] bcast_S_S100000 (constant S_ .f32 0x00000000#32))) (Host.rsqrt (deg x1)) (broadcastInDim S100000 ![] bcast_S_S100000 (id (constant S_ .f32 0x00000000#32)))

/-- A node index as the gather reads it: a negative index counts from the end. -/
def wrap (i : (⟨S1700000, .i32⟩ : BufTy).Contents (Elt F)) : (⟨S1700000, .i32⟩ : BufTy).Contents (Elt F) :=
  select (cmpi .slt i (broadcastInDim S1700000 ![] bcast_S_S1700000 (constantI S_ 32 0#32))) (addi i (broadcastInDim S1700000 ![] bcast_S_S1700000 (constantI S_ 32 100000#32))) i

/-- The normalisation of each edge: the inverse square roots of its two endpoints' degrees, multiplied. -/
def normOf (d : (⟨S100000, .f32⟩ : BufTy).Contents (Elt F)) (s t : (⟨S1700000, .i32⟩ : BufTy).Contents (Elt F)) : (⟨S1700000, .f32⟩ : BufTy).Contents (Elt F) :=
  mulf (Host.gather gather_S100000_S1700000x1_S1700000_n_0_n_n_0_1_1 d (broadcastInDim S1700000x1 ![0] bcast_S1700000_S1700000x1_0 (wrap s))) (Host.gather gather_S100000_S1700000x1_S1700000_n_0_n_n_0_1_1 d (broadcastInDim S1700000x1 ![0] bcast_S1700000_S1700000x1_0 (wrap t)))
def norm (x1 : (⟨S2x1600000, .i32⟩ : BufTy).Contents (Elt F)) : (⟨S1700000, .f32⟩ : BufTy).Contents (Elt F) := normOf (dinv x1) (src x1) (dst x1)

/-- One round of message passing over transformed features `hw`: gather at the sources, scale by the edge's
    normalisation, add up at the destinations. -/
def aggOf (hw : (⟨S100000x128, .f32⟩ : BufTy).Contents (Elt F)) (s t : (⟨S1700000, .i32⟩ : BufTy).Contents (Elt F)) (n : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 t) (mulf (Host.gather gather_S100000x128_S1700000x1_S1700000x128_1_0_n_n_0_1_1128 hw (broadcastInDim S1700000x1 ![0] bcast_S1700000_S1700000x1_0 (wrap s))) (broadcastInDim S1700000x128 ![0, 1] bcast_S1700000x1_S1700000x128_0_1 (broadcastInDim S1700000x1 ![0] bcast_S1700000_S1700000x1_0 n)))
def agg (hw : (⟨S100000x128, .f32⟩ : BufTy).Contents (Elt F)) (x1 : (⟨S2x1600000, .i32⟩ : BufTy).Contents (Elt F)) : (⟨S100000x128, .f32⟩ : BufTy).Contents (Elt F) := aggOf hw (src x1) (dst x1) (norm x1)

/-- A bias vector as a one-row matrix. -/
def row128 (b : (⟨S128, .f32⟩ : BufTy).Contents (Elt F)) : (⟨S1x128, .f32⟩ : BufTy).Contents (Elt F) := broadcastInDim S1x128 ![1] bcast_S128_S1x128_1 b
def row3 (b : (⟨S3, .f32⟩ : BufTy).Contents (Elt F)) : (⟨S1x3, .f32⟩ : BufTy).Contents (Elt F) := broadcastInDim S1x3 ![1] bcast_S3_S1x3_1 b
/-- The boundary mask: column 3 of the node features. -/
def maskCol (x0 : (⟨S100000x9, .f32⟩ : BufTy).Contents (Elt F)) : (⟨S100000x1, .f32⟩ : BufTy).Contents (Elt F) := extractStridedSlice S100000x1 ![0, 3] x0 slices_S100000x9_S100000x1_0_3

/-- The encoder. -/
def enc (x0 : (⟨S100000x9, .f32⟩ : BufTy).Contents (Elt F)) (x2 : (⟨S9x128, .f32⟩ : BufTy).Contents (Elt F)) (b : (⟨S1x128, .f32⟩ : BufTy).Contents (Elt F)) : (⟨S100000x128, .f32⟩ : BufTy).Contents (Elt F) :=
  maximumf (addf (Host.dotGeneral dot_S100000x9_S9x128_S100000x128_1_0_0_1_n_n none x0 x2) (broadcastInDim S100000x128 ![0, 1] bcast_S1x128_S100000x128_0_1 b)) (broadcastInDim S100000x128 ![] bcast_S_S100000x128 (constant S_ .f32 0x00000000#32))

/-- A layer's dense transform. -/
def lin (h : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none h w

/-- A layer's closing stage: bias, then relu. -/
def act (a : (⟨S100000x128, .f32⟩ : BufTy).Contents (Elt F)) (b : (⟨S1x128, .f32⟩ : BufTy).Contents (Elt F)) : (⟨S100000x128, .f32⟩ : BufTy).Contents (Elt F) :=
  maximumf (addf a (broadcastInDim S100000x128 ![0, 1] bcast_S1x128_S100000x128_0_1 b)) (broadcastInDim S100000x128 ![] bcast_S_S100000x128 (constant S_ .f32 0x00000000#32))

/-- The decoder with its boundary mask. -/
def dec (h : (⟨S100000x128, .f32⟩ : BufTy).Contents (Elt F)) (w : (⟨S128x3, .f32⟩ : BufTy).Contents (Elt F)) (b : (⟨S1x3, .f32⟩ : BufTy).Contents (Elt F)) (mask : (⟨S100000x1, .f32⟩ : BufTy).Contents (Elt F)) : (⟨S100000x3, .f32⟩ : BufTy).Contents (Elt F) :=
  mulf (addf (Host.dotGeneral dot_S100000x128_S128x3_S100000x3_1_0_0_1_n_n none h w) (broadcastInDim S100000x3 ![0, 1] bcast_S1x3_S100000x3_0_1 b)) (broadcastInDim S100000x3 ![0, 1] bcast_S100000x1_S100000x3_0_1 (subf (broadcastInDim S100000x1 ![] bcast_S_S100000x1 (constant S_ .f32 0x3F800000#32)) mask))

/-- The whole network. -/
def out (x0 : (⟨S100000x9, .f32⟩ : BufTy).Contents (Elt F)) (x1 : (⟨S2x1600000, .i32⟩ : BufTy).Contents (Elt F)) (x2 : (⟨S9x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (x8 : (⟨S128x128, .f32⟩ : BufTy).Contents (Elt F)) (x9 : (⟨S128, .f32⟩ : BufTy).Contents (Elt F)) (x10 : (⟨S128x3, .f32⟩ : BufTy).Contents (Elt F)) (x11 : (⟨S3, .f32⟩ : BufTy).Contents (Elt F)) : (⟨S100000x3, .f32⟩ : BufTy).Contents (Elt F) :=
  dec (act (agg (lin (act (agg (lin (act (agg (lin (enc x0 x2 (row128 x3)) x4) x1) (row128 x5)) x6) x1) (row128 x7)) x8) x1) (row128 x9)) x10 (row3 x11) (maskCol x0)

/-- The reference run's result term is the network of the argument arrays. -/
theorem res_eq (m : (ℓ : Loc nD τ sig) → Buf (Elt F) ℓ) (c : Dev nD) :
    ValueP.res_main_v97 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) := by
  unfold ValueP.res_main_v97
  rfl

end AnyInstance

section AtIdeal

theorem dot9_lhs0 (i : S100000x128.Idx) (q : dot_S100000x9_S9x128_S100000x128_1_0_0_1_n_n.contr.Idx) : (dot_S100000x9_S9x128_S100000x128_1_0_0_1_n_n.lhsIdx i q 0).val = (i 0).val := by
  unfold DotDims.lhsIdx
  rw [dif_neg (show ¬(0 : Fin S100000x9.rank) ∈ dot_S100000x9_S9x128_S100000x128_1_0_0_1_n_n.lhsBatch by decide), dif_pos (show (0 : Fin S100000x9.rank) ∈ dot_S100000x9_S9x128_S100000x128_1_0_0_1_n_n.lhsNonContracting by decide)]
  rfl
theorem dot9_rhs1 (i : S100000x128.Idx) (q : dot_S100000x9_S9x128_S100000x128_1_0_0_1_n_n.contr.Idx) : (dot_S100000x9_S9x128_S100000x128_1_0_0_1_n_n.rhsIdx i q 1).val = (i 1).val := by
  unfold DotDims.rhsIdx
  rw [dif_neg (show ¬(1 : Fin S9x128.rank) ∈ dot_S100000x9_S9x128_S100000x128_1_0_0_1_n_n.rhsBatch by decide), dif_pos (show (1 : Fin S9x128.rank) ∈ dot_S100000x9_S9x128_S100000x128_1_0_0_1_n_n.rhsNonContracting by decide)]
  rfl
/-- The host's matrix product read at entry (r, c): the sum over the contracted axis. -/
theorem dot9_apply (x : FVec Ideal S100000x9 .f32) (w : FVec Ideal S9x128 .f32) (r : Fin 100000) (c : Fin 128) :
    Host.dotGeneral (F := Ideal) dot_S100000x9_S9x128_S100000x128_1_0_0_1_n_n none x w (ix2 r c) = ∑ k : Fin 9, x (ix2 r k) * w (ix2 k c) := by
  simp only [Host.dotGeneral]
  rw [Ideal.dotGeneral_apply, ← Equiv.sum_comp (contrEquiv1 dot_S100000x9_S9x128_S100000x128_1_0_0_1_n_n 9 rfl rfl).symm]
  refine Finset.sum_congr rfl fun k _ => ?_
  have hk := contrEquiv1_symm_val dot_S100000x9_S9x128_S100000x128_1_0_0_1_n_n 9 rfl rfl k
  have el : dot_S100000x9_S9x128_S100000x128_1_0_0_1_n_n.lhsIdx (ix2 r c) ((contrEquiv1 dot_S100000x9_S9x128_S100000x128_1_0_0_1_n_n 9 rfl rfl).symm k) = ix2 r k := funext fun a => Fin.ext (by
    match a with
    | ⟨0, _⟩ => exact dot9_lhs0 _ _
    | ⟨1, _⟩ => exact (dot_S100000x9_S9x128_S100000x128_1_0_0_1_n_n.lhsIdx_val_of_single rfl _ _).trans hk)
  have er : dot_S100000x9_S9x128_S100000x128_1_0_0_1_n_n.rhsIdx (ix2 r c) ((contrEquiv1 dot_S100000x9_S9x128_S100000x128_1_0_0_1_n_n 9 rfl rfl).symm k) = ix2 k c := funext fun a => Fin.ext (by
    match a with
    | ⟨0, _⟩ => exact (dot_S100000x9_S9x128_S100000x128_1_0_0_1_n_n.rhsIdx_val_of_single rfl _ _).trans hk
    | ⟨1, _⟩ => exact dot9_rhs1 _ _)
  rw [el, er]

theorem dot128_lhs0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dot128_rhs1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
/-- The host's matrix product read at entry (r, c): the sum over the contracted axis. -/
theorem dot128_apply (x : FVec Ideal S100000x128 .f32) (w : FVec Ideal S128x128 .f32) (r : Fin 100000) (c : Fin 128) :
    Host.dotGeneral (F := Ideal) dot_S100000x128_S128x128_S100000x128_1_0_0_1_n_n none x w (ix2 r c) = ∑ k : Fin 128, x (ix2 r k) * w (ix2 k c) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r c) ((contrEquiv1 dot_S100000x128_S128x128_S100000x128_1_0_0_1_n_n 128 rfl rfl).symm k) = ix2 r k := funext fun a => Fin.ext (by
    match a with
    | ⟨0, _⟩ => exact dot128_lhs0 _ _
    | ⟨1, _⟩ => exact (dot_S100000x128_S128x128_S100000x128_1_0_0_1_n_n.lhsIdx_val_of_single rfl _ _).trans hk)
  have er : dot_S100000x128_S128x128_S100000x128_1_0_0_1_n_n.rhsIdx (ix2 r c) ((contrEquiv1 dot_S100000x128_S128x128_S100000x128_1_0_0_1_n_n 128 rfl rfl).symm k) = ix2 k c := funext fun a => Fin.ext (by
    match a with
    | ⟨0, _⟩ => exact (dot_S100000x128_S128x128_S100000x128_1_0_0_1_n_n.rhsIdx_val_of_single rfl _ _).trans hk
    | ⟨1, _⟩ => exact dot128_rhs1 _ _)
  rw [el, er]

theorem dot3_lhs0 (i : S100000x3.Idx) (q : dot_S100000x128_S128x3_S100000x3_1_0_0_1_n_n.contr.Idx) : (dot_S100000x128_S128x3_S100000x3_1_0_0_1_n_n.lhsIdx i q 0).val = (i 0).val := by
  unfold DotDims.lhsIdx
  rw [dif_neg (show ¬(0 : Fin S100000x128.rank) ∈ dot_S100000x128_S128x3_S100000x3_1_0_0_1_n_n.lhsBatch by decide), dif_pos (show (0 : Fin S100000x128.rank) ∈ dot_S100000x128_S128x3_S100000x3_1_0_0_1_n_n.lhsNonContracting by decide)]
  rfl
theorem dot3_rhs1 (i : S100000x3.Idx) (q : dot_S100000x128_S128x3_S100000x3_1_0_0_1_n_n.contr.Idx) : (dot_S100000x128_S128x3_S100000x3_1_0_0_1_n_n.rhsIdx i q 1).val = (i 1).val := by
  unfold DotDims.rhsIdx
  rw [dif_neg (show ¬(1 : Fin S128x3.rank) ∈ dot_S100000x128_S128x3_S100000x3_1_0_0_1_n_n.rhsBatch by decide), dif_pos (show (1 : Fin S128x3.rank) ∈ dot_S100000x128_S128x3_S100000x3_1_0_0_1_n_n.rhsNonContracting by decide)]
  rfl
/-- The host's matrix product read at entry (r, c): the sum over the contracted axis. -/
theorem dot3_apply (x : FVec Ideal S100000x128 .f32) (w : FVec Ideal S128x3 .f32) (r : Fin 100000) (c : Fin 3) :
    Host.dotGeneral (F := Ideal) dot_S100000x128_S128x3_S100000x3_1_0_0_1_n_n none x w (ix2 r c) = ∑ k : Fin 128, x (ix2 r k) * w (ix2 k c) := by
  simp only [Host.dotGeneral]
  rw [Ideal.dotGeneral_apply, ← Equiv.sum_comp (contrEquiv1 dot_S100000x128_S128x3_S100000x3_1_0_0_1_n_n 128 rfl rfl).symm]
  refine Finset.sum_congr rfl fun k _ => ?_
  have hk := contrEquiv1_symm_val dot_S100000x128_S128x3_S100000x3_1_0_0_1_n_n 128 rfl rfl k
  have el : dot_S100000x128_S128x3_S100000x3_1_0_0_1_n_n.lhsIdx (ix2 r c) ((contrEquiv1 dot_S100000x128_S128x3_S100000x3_1_0_0_1_n_n 128 rfl rfl).symm k) = ix2 r k := funext fun a => Fin.ext (by
    match a with
    | ⟨0, _⟩ => exact dot3_lhs0 _ _
    | ⟨1, _⟩ => exact (dot_S100000x128_S128x3_S100000x3_1_0_0_1_n_n.lhsIdx_val_of_single rfl _ _).trans hk)
  have er : dot_S100000x128_S128x3_S100000x3_1_0_0_1_n_n.rhsIdx (ix2 r c) ((contrEquiv1 dot_S100000x128_S128x3_S100000x3_1_0_0_1_n_n 128 rfl rfl).symm k) = ix2 k c := funext fun a => Fin.ext (by
    match a with
    | ⟨0, _⟩ => exact (dot_S100000x128_S128x3_S100000x3_1_0_0_1_n_n.rhsIdx_val_of_single rfl _ _).trans hk
    | ⟨1, _⟩ => exact dot3_rhs1 _ _)
  rw [el, er]

/-- A one-row matrix spread over all rows reads, at (r, c), the row's entry c. -/
theorem row_spread128 (b : FVec Ideal S1x128 .f32) (r : Fin 100000) (c : Fin 128) :
    broadcastInDim S100000x128 ![0, 1] bcast_S1x128_S100000x128_0_1 b (ix2 r c) = b (ix2 0 c) := by
  refine broadcastInDim_apply _ bcast_S1x128_S100000x128_0_1 b (ix2 r c) (ix2 0 c) fun a => ?_
  match a with
  | ⟨0, _⟩ => show (0 : Nat) = if (1 : Nat) = 1 then 0 else r.val; rw [if_pos rfl]
  | ⟨1, _⟩ => show c.val = if (128 : Nat) = 1 then 0 else c.val; rw [if_neg (by decide)]
theorem row_spread3 (b : FVec Ideal S1x3 .f32) (r : Fin 100000) (c : Fin 3) :
    broadcastInDim S100000x3 ![0, 1] bcast_S1x3_S100000x3_0_1 b (ix2 r c) = b (ix2 0 c) := by
  refine broadcastInDim_apply _ bcast_S1x3_S100000x3_0_1 b (ix2 r c) (ix2 0 c) fun a => ?_
  match a with
  | ⟨0, _⟩ => show (0 : Nat) = if (1 : Nat) = 1 then 0 else r.val; rw [if_pos rfl]
  | ⟨1, _⟩ => show c.val = if (3 : Nat) = 1 then 0 else c.val; rw [if_neg (by decide)]
/-- A one-column matrix spread over three columns reads, at (r, c), its entry (r, 0). -/
theorem column_spread (v : FVec Ideal S100000x1 .f32) (r : Fin 100000) (c : Fin 3) :
    broadcastInDim S100000x3 ![0, 1] bcast_S100000x1_S100000x3_0_1 v (ix2 r c) = v (ix2 r 0) := by
  refine broadcastInDim_apply _ bcast_S100000x1_S100000x3_0_1 v (ix2 r c) (ix2 r 0) fun a => ?_
  match a with
  | ⟨0, _⟩ => show r.val = if (100000 : Nat) = 1 then 0 else r.val; rw [if_neg (by decide)]
  | ⟨1, _⟩ => show (0 : Nat) = if (1 : Nat) = 1 then 0 else c.val; rw [if_pos rfl]

theorem lin_eq (h : FVec Ideal S100000x128 .f32) (w : FVec Ideal S128x128 .f32) :
    lin (F := Ideal) h w = Gcn.rowsTimes h w := by
  funext i
  obtain ⟨r, c, rfl⟩ : ∃ (r : Fin 100000) (c : Fin 128), i = ix2 r c := ⟨i 0, i 1, eq_ix2 i⟩
  rw [Gcn.rowsTimes_ix2]
  exact dot128_apply h w r c

theorem enc_eq (x0 : FVec Ideal S100000x9 .f32) (x2 : FVec Ideal S9x128 .f32) (b : FVec Ideal S1x128 .f32) :
    enc (F := Ideal) x0 x2 b = Gcn.encode x0 x2 b := by
  funext i
  obtain ⟨r, c, rfl⟩ : ∃ (r : Fin 100000) (c : Fin 128), i = ix2 r c := ⟨i 0, i 1, eq_ix2 i⟩
  rw [Gcn.encode_ix2]
  unfold enc
  show max (Host.dotGeneral (F := Ideal) dot_S100000x9_S9x128_S100000x128_1_0_0_1_n_n none x0 x2 (ix2 r c)
      + broadcastInDim S100000x128 ![0, 1] bcast_S1x128_S100000x128_0_1 b (ix2 r c)) _ = _
  rw [dot9_apply, row_spread128]
  rfl

theorem act_eq (a : FVec Ideal S100000x128 .f32) (b : FVec Ideal S1x128 .f32) :
    act (F := Ideal) a b = Gcn.addRowRelu a b := by
  funext i
  obtain ⟨r, c, rfl⟩ : ∃ (r : Fin 100000) (c : Fin 128), i = ix2 r c := ⟨i 0, i 1, eq_ix2 i⟩
  rw [Gcn.addRowRelu_ix2]
  unfold act
  show max (a (ix2 r c) + broadcastInDim S100000x128 ![0, 1] bcast_S1x128_S100000x128_0_1 b (ix2 r c)) _ = _
  rw [row_spread128]
  rfl

theorem dec_eq (h : FVec Ideal S100000x128 .f32) (w : FVec Ideal S128x3 .f32) (b : FVec Ideal S1x3 .f32) (mask : FVec Ideal S100000x1 .f32) :
    dec (F := Ideal) h w b mask = Gcn.decode h w b mask := by
  funext i
  obtain ⟨r, c, rfl⟩ : ∃ (r : Fin 100000) (c : Fin 3), i = ix2 r c := ⟨i 0, i 1, eq_ix2 i⟩
  rw [Gcn.decode_ix2, Gcn.rowsTimes_ix2]
  unfold dec
  show (Host.dotGeneral (F := Ideal) dot_S100000x128_S128x3_S100000x3_1_0_0_1_n_n none h w (ix2 r c)
      + broadcastInDim S100000x3 ![0, 1] bcast_S1x3_S100000x3_0_1 b (ix2 r c))
      * broadcastInDim S100000x3 ![0, 1] bcast_S100000x1_S100000x3_0_1 (subf (broadcastInDim S100000x1 ![] bcast_S_S100000x1 (constant (F := Ideal) S_ .f32 0x3F800000#32)) mask) (ix2 r c) = _
  rw [dot3_apply, row_spread3, column_spread]
  rfl

end AtIdeal

end Cert.ReferenceIdeal.Stages

end
-- ==== Proof.RunValue.lean ====
/-
  The run of the blocked program, with its result named.

  The program is fifteen segments in a row — stretches of whole-array operations and eight blocked stages — and its
  run is the launch of those segments from the initial memory: every weakly fair execution terminates, nothing faults,
  and the final memory holds, at every buffer that outlives a stage, the contents the segments' fold `W15` computes
  from the initial memory. Read at the result buffer that is the statement below: the result array ends at
  `W15 … main_v82`; read at the twelve argument buffers, which no segment writes, it says they end as they began.
  This is the launch theorem of the library applied to the program's segments with both readings kept.
-/
import proofs.«159549_j78486232367508_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the fold's contents and the
    argument buffers as launched. -/
theorem run_result : θ_run defs (onTc (τ := τ) (main (F := F))) ⟨m, fun _ => 0, ρ⟩ (fun r => ∀ c : Dev nD,
      r.2.mem ((c.tc : Thread nD τ).loc main_v82) = W15 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v82 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.RunValue

end
-- ==== Proof.Region0.lean ====
/-
  The encoder, x ↦ max(x · W + b, 0), as the array its blocked computation leaves.

  The computation walks the 100000 rows of the node features x (9 channels) in 20 blocks of 5000: at block t it
  multiplies rows 5000 t … 5000 t + 4999 of x by the whole 9 × 128 weight matrix (the narrowing of both operands before the
  product is the identity over the extended reals, and the product accumulates into zero), adds the bias row, takes the
  maximum with zero and writes the same rows of the output. Entry (r, c) of a block's result is
  max(∑ₖ x(5000 t + r, k) · W(k, c) + b(0, c), 0): entry (5000 t + r, c) of `Gcn.encode x W b`. The row blocks tile the
  output, so the array left is `Gcn.encode x W b`, whatever x, W and b hold when the stage is entered (`V`).
-/
import proofs.«159549_j78486232367508_1_alg».proof.Proof.Gen.KernelIdeal.Frame
import proofs.«159549_j78486232367508_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-- The zero offset of a whole-buffer access, as a constant function. -/
theorem hz : (![0, 0] : Fin 2 → Nat) = fun _ => 0 := funext fun a => by fin_cases a <;> rfl

/-- The left operand's row coordinate at an output entry is the entry's row. -/
theorem lhs_0 (i : S5000x128.Idx) (q : dot_S5000x9_S9x128_S5000x128_1_0_0_1_n_n.contr.Idx) :
    (dot_S5000x9_S9x128_S5000x128_1_0_0_1_n_n.lhsIdx i q 0).val = (i 0).val := by
  unfold DotDims.lhsIdx
  rw [dif_neg (show ¬(0 : Fin S5000x9.rank) ∈ dot_S5000x9_S9x128_S5000x128_1_0_0_1_n_n.lhsBatch by decide), dif_pos (show (0 : Fin S5000x9.rank) ∈ dot_S5000x9_S9x128_S5000x128_1_0_0_1_n_n.lhsNonContracting by decide)]
  rfl
/-- The right operand's column coordinate at an output entry is the entry's column. -/
theorem rhs_1 (i : S5000x128.Idx) (q : dot_S5000x9_S9x128_S5000x128_1_0_0_1_n_n.contr.Idx) :
    (dot_S5000x9_S9x128_S5000x128_1_0_0_1_n_n.rhsIdx i q 1).val = (i 1).val := by
  unfold DotDims.rhsIdx
  rw [dif_neg (show ¬(1 : Fin S9x128.rank) ∈ dot_S5000x9_S9x128_S5000x128_1_0_0_1_n_n.rhsBatch by decide), dif_pos (show (1 : Fin S9x128.rank) ∈ dot_S5000x9_S9x128_S5000x128_1_0_0_1_n_n.rhsNonContracting by decide)]
  rfl

/-- Entry (r, c) of a block's product: the sum over the 9 input channels. -/
theorem dot_apply (x0 : Vec Ideal S5000x9 .f32) (x1 : Vec Ideal S9x128 .f32) (p : Fin 5000) (q : Fin 128) :
    matmul (F := Ideal) dot_S5000x9_S9x128_S5000x128_1_0_0_1_n_n none (truncf .bf16 x0 bitsLt_bf16_f32) (truncf .bf16 x1 bitsLt_bf16_f32) (constant S5000x128 .f32 0x00000000#32) (ix2 p q)
      = ∑ k : Fin 9, x0 (ix2 p k) * x1 (ix2 k q) := by
  simp only [matmul]
  refine (Ideal.matmul_constant_zero_apply dot_S5000x9_S9x128_S5000x128_1_0_0_1_n_n none _ _ (ix2 p q)).trans ?_
  rw [← Equiv.sum_comp (contrEquiv1 dot_S5000x9_S9x128_S5000x128_1_0_0_1_n_n 9 rfl rfl).symm]
  refine Finset.sum_congr rfl fun k _ => ?_
  have hk := contrEquiv1_symm_val dot_S5000x9_S9x128_S5000x128_1_0_0_1_n_n 9 rfl rfl k
  have el : dot_S5000x9_S9x128_S5000x128_1_0_0_1_n_n.lhsIdx (ix2 p q) ((contrEquiv1 dot_S5000x9_S9x128_S5000x128_1_0_0_1_n_n 9 rfl rfl).symm k) = ix2 p k := funext fun a => Fin.ext (by
    match a with
    | ⟨0, _⟩ => exact lhs_0 _ _
    | ⟨1, _⟩ => exact (dot_S5000x9_S9x128_S5000x128_1_0_0_1_n_n.lhsIdx_val_of_single rfl _ _).trans hk)
  have er : dot_S5000x9_S9x128_S5000x128_1_0_0_1_n_n.rhsIdx (ix2 p q) ((contrEquiv1 dot_S5000x9_S9x128_S5000x128_1_0_0_1_n_n 9 rfl rfl).symm k) = ix2 k q := funext fun a => Fin.ext (by
    match a with
    | ⟨0, _⟩ => exact (dot_S5000x9_S9x128_S5000x128_1_0_0_1_n_n.rhsIdx_val_of_single rfl _ _).trans hk
    | ⟨1, _⟩ => exact rhs_1 _ _)
  show x0 _ * x1 _ = _
  rw [el, er]

/-- Entry (r, c) of a block's result: the product's entry plus the bias row's entry c, then the maximum with zero. -/
theorem pay_apply (x0 : Vec Ideal S5000x9 .f32) (x1 : Vec Ideal S9x128 .f32) (x2 : Vec Ideal S1x128 .f32) (p : Fin 5000) (q : Fin 128) :
    k0_pay1 (F := Ideal) x0 x1 x2 (ix2 p q) = max ((∑ k : Fin 9, x0 (ix2 p k) * x1 (ix2 k q)) + x2 (ix2 0 q)) (Ideal.ofBits .f32 0x00000000#32) := by
  unfold k0_pay1
  show max (matmul (F := Ideal) dot_S5000x9_S9x128_S5000x128_1_0_0_1_n_n none (truncf .bf16 x0 bitsLt_bf16_f32) (truncf .bf16 x1 bitsLt_bf16_f32) (constant S5000x128 .f32 0x00000000#32) (ix2 p q)
      + broadcastTo S5000x128 (shapeCast S1x128 x2 shapeCasts_S1x128_S1x128) broadcasts_S1x128_S5000x128 (ix2 p q)) _ = _
  rw [dot_apply, broadcastTo_1b_ab_apply, shapeCast_self]
  rfl

variable (V : (c : Dev nD) → (b : Ref sig .tc) → Buf (Elt Ideal) ((c : Thread nD τ).loc b))

/-- The printed block-index maps over the grid: the row blocks move with the point, the weights and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of the node features is rows 5000 t … 5000 t + 4999 of the array the stage finds. -/
theorem rows_block (c : Dev nD) (t : Fin cfg0.N) (x : S5000x9.Idx) (k : S100000x9.Idx)
    (hk0 : (k 0).val = 5000 * t.val + (x 0).val) (hk1 : (k 1).val = (x 1).val) :
    (iblk0 V c 0 t : Vec Ideal S5000x9 .f32) x = (V c main_arg0 : S100000x9.Idx → Elt Ideal .f32) k := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 5000 + 1 * (x 0).val = (k 0).val; rw [e0, hk0]; omega
  | ⟨1, _⟩ => show win0_0.index t 1 * 9 + 1 * (x 1).val = (k 1).val; rw [e1, hk1]; omega

/-- Every point reads the whole weight matrix. -/
theorem weight_block (c : Dev nD) (t : Fin cfg0.N) (x : S9x128.Idx) :
    (iblk0 V c 1 t : Vec Ideal S9x128 .f32) x = (V c main_arg2 : S9x128.Idx → Elt Ideal .f32) x := by
  obtain ⟨-, -, e2, e3, -⟩ := idx_facts t
  unfold iblk0
  rw [View.read_apply]
  show V c main_arg2 _ = V c main_arg2 _
  refine congrArg (V c main_arg2) ?_
  funext a
  apply Fin.ext
  match a with
  | ⟨0, _⟩ => show win0_1.index t 0 * 9 + 1 * (x 0).val = (x 0).val; rw [e2]; omega
  | ⟨1, _⟩ => show win0_1.index t 1 * 128 + 1 * (x 1).val = (x 1).val; rw [e3]; omega

/-- Every point reads the whole bias row. -/
theorem bias_block (c : Dev nD) (t : Fin cfg0.N) (x : S1x128.Idx) :
    (iblk0 V c 2 t : Vec Ideal S1x128 .f32) x = (V c main_v30 : S1x128.Idx → Elt Ideal .f32) x := by
  obtain ⟨-, -, -, -, e4, e5, -⟩ := idx_facts t
  unfold iblk0
  rw [View.read_apply]
  show V c main_v30 _ = V c main_v30 _
  refine congrArg (V c main_v30) ?_
  funext a
  apply Fin.ext
  match a with
  | ⟨0, _⟩ => show win0_2.index t 0 * 1 + 1 * (x 0).val = (x 0).val; rw [e4]; omega
  | ⟨1, _⟩ => show win0_2.index t 1 * 128 + 1 * (x 1).val = (x 1).val; rw [e5]; omega

/-- What point t writes back is block t of the whole-array function. -/
theorem flushed_eq (c : Dev nD) (t : Fin cfg0.N) :
    (dat0 V c).flushed 3 t = ((cfg0.win 3).blk t).view.read (Elt Ideal) (Gcn.encode (V c main_arg0) (V c main_arg2) (V c main_v30)) := by
  show (cfg0.win 3).cut (grid0.coords t) ((dat0 V c).after 3 t) = _
  rw [after0_3]
  unfold out0_3
  rw [View.canon_unit_zero hz]
  simp only [View.ld_unit_zero (S := S5000x9) hz, View.ld_unit_zero (S := S9x128) hz, View.ld_unit_zero (S := S1x128) hz]
  funext y
  show k0_pay1 (iblk0 V c 0 t) (iblk0 V c 1 t) (iblk0 V c 2 t) y = Gcn.encode (V c main_arg0) (V c main_arg2) (V c main_v30) (((cfg0.win 3).blk t).view.emb y)
  obtain ⟨p, q, rfl⟩ : ∃ (p : Fin 5000) (q : Fin 128), y = ix2 p q := ⟨y 0, y 1, eq_ix2 y⟩
  obtain ⟨-, -, -, -, -, -, e6, e7⟩ := idx_facts t
  have ht : t.val < 20 := lt_of_lt_of_eq t.isLt N_0
  have hemb : ((cfg0.win 3).blk t).view.emb (ix2 p q) = ix2 (n0 := 100000) (n1 := 128) ⟨5000 * t.val + p.val, by omega⟩ q := by
    funext a
    apply Fin.ext
    match a with
    | ⟨0, _⟩ => show win0_3.index t 0 * 5000 + 1 * p.val = 5000 * t.val + p.val; rw [e6]; omega
    | ⟨1, _⟩ => show win0_3.index t 1 * 128 + 1 * q.val = q.val; rw [e7]; omega
  rw [hemb, Gcn.encode_ix2]
  refine (pay_apply _ _ _ p q).trans ?_
  rw [bias_block V c t (ix2 0 q)]
  refine congrArg (fun s => max (s + _) _) (Finset.sum_congr rfl fun k _ => ?_)
  rw [rows_block V c t (ix2 p k) (ix2 ⟨5000 * t.val + p.val, by omega⟩ k) rfl rfl, weight_block V c t (ix2 k q)]

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- The 20 row blocks tile the 100000 rows, so the array the stage leaves is the whole-array function. -/
theorem final (c : Dev nD) : (dat0 V c).arrAt 3 cfg0.N = Gcn.encode (V c main_arg0) (V c main_arg2) (V c main_v30) :=
  (dat0 V c).arrAt_eq_of_cover 3 (Gcn.encode (V c main_arg0) (V c main_arg2) (V c main_v30)) (fun t _ => flushed_eq V c t) (fun i => by
    have hi0 : (i 0).val < 100000 := (i 0).isLt
    have hi1 : (i 1).val < 128 := (i 1).isLt
    have hN : cfg0.N = 20 := N_0
    refine ⟨⟨(i 0).val / 5000, by rw [hN]; omega⟩, flush0_3 _, ?_⟩
    rw [mem_blk]
    obtain ⟨-, -, -, -, -, -, e6, e7⟩ := idx_facts ⟨(i 0).val / 5000, by rw [hN]; omega⟩
    intro a
    match a with
    | ⟨0, _⟩ =>
      show win0_3.index _ 0 * 5000 ≤ (i 0).val ∧ (i 0).val < win0_3.index _ 0 * 5000 + 5000
      rw [e6]; show (i 0).val / 5000 * 5000 ≤ (i 0).val ∧ (i 0).val < (i 0).val / 5000 * 5000 + 5000; omega
    | ⟨1, _⟩ =>
      show win0_3.index _ 1 * 128 ≤ (i 1).val ∧ (i 1).val < win0_3.index _ 1 * 128 + 128
      rw [e7]; omega)

end Cert.KernelIdeal.Region0

end
-- ==== Proof.Region1.lean ====
/-
  The first graph layer's dense transform, h ↦ h · w₁, as the array its blocked computation leaves.

  The computation walks the 100000 rows of h in 20 blocks of 5000: at block t it multiplies rows 5000 t … 5000 t + 4999
  of h by the whole 128 × 128 weight matrix (the narrowing of both operands before the product is the identity over
  the extended reals, and the product accumulates into zero) and writes the 5000 × 128 result to the same rows of the
  output. Entry (r, c) of a block's product is ∑ₖ h(5000 t + r, k) · w(k, c): exactly entry (5000 t + r, c) of the
  whole product `Gcn.rowsTimes h w`. The 20 row blocks tile the output, so the array left is `Gcn.rowsTimes h w`,
  whatever the arrays h and w hold when the stage is entered (`V`).
-/
import proofs.«159549_j78486232367508_1_alg».proof.Proof.Gen.KernelIdeal.Frame
import proofs.«159549_j78486232367508_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-- The zero offset of a whole-buffer access, as a constant function. -/
theorem hz : (![0, 0] : Fin 2 → Nat) = fun _ => 0 := funext fun a => by fin_cases a <;> rfl

/-- The left operand's row coordinate at an output entry is the entry's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's column coordinate at an output entry is the entry's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, c) of a block's product: the sum over the 128 hidden channels. -/
theorem pay_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  simp only [matmul]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_1 _ _)
  show shapeCast S5000x128 x0 shapeCasts_S5000x128_S5000x128 _ * x1 _ = _
  rw [el, er, shapeCast_self]

variable (V : (c : Dev nD) → (b : Ref sig .tc) → Buf (Elt Ideal) ((c : Thread nD τ).loc b))

/-- The printed block-index maps over the grid: the row blocks move with the point, the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Block t of the left operand is rows 5000 t … 5000 t + 4999 of the array the region finds. -/
theorem lhs_block (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v31 : S100000x128.Idx → Elt Ideal .f32) k := by
  obtain ⟨e0, e1, -⟩ := idx_facts t
  unfold iblk1
  rw [View.read_apply]
  show V c main_v31 _ = V c main_v31 _
  refine congrArg (V c main_v31) ?_
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Every point reads the whole weight matrix. -/
theorem rhs_block (c : Dev nD) (t : Fin cfg1.N) (x : S128x128.Idx) :
    (iblk1 V c 1 t : Vec Ideal S128x128 .f32) x = (V c main_arg4 : S128x128.Idx → Elt Ideal .f32) x := by
  obtain ⟨-, -, e2, e3, -⟩ := idx_facts t
  unfold iblk1
  rw [View.read_apply]
  show V c main_arg4 _ = V c main_arg4 _
  refine congrArg (V c main_arg4) ?_
  funext a
  apply Fin.ext
  match a with
  | ⟨0, _⟩ => show win1_1.index t 0 * 128 + 1 * (x 0).val = (x 0).val; rw [e2]; omega
  | ⟨1, _⟩ => show win1_1.index t 1 * 128 + 1 * (x 1).val = (x 1).val; rw [e3]; omega

/-- What point t writes back is block t of the whole product. -/
theorem flushed_eq (c : Dev nD) (t : Fin cfg1.N) :
    (dat1 V c).flushed 2 t = ((cfg1.win 2).blk t).view.read (Elt Ideal) (Gcn.rowsTimes (V c main_v31) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  funext y
  show k1_pay1 (iblk1 V c 0 t) (iblk1 V c 1 t) y = Gcn.rowsTimes (V c main_v31) (V c main_arg4) (((cfg1.win 2).blk t).view.emb y)
  obtain ⟨p, q, rfl⟩ : ∃ (p : Fin 5000) (q : Fin 128), y = ix2 p q := ⟨y 0, y 1, eq_ix2 y⟩
  obtain ⟨-, -, -, -, e4, e5⟩ := idx_facts t
  have ht : t.val < 20 := lt_of_lt_of_eq t.isLt N_1
  have hemb : ((cfg1.win 2).blk t).view.emb (ix2 p q) = ix2 (n0 := 100000) (n1 := 128) ⟨5000 * t.val + p.val, by omega⟩ q := by
    funext a
    apply Fin.ext
    match a with
    | ⟨0, _⟩ => show win1_2.index t 0 * 5000 + 1 * p.val = 5000 * t.val + p.val; rw [e4]; omega
    | ⟨1, _⟩ => show win1_2.index t 1 * 128 + 1 * q.val = q.val; rw [e5]; omega
  rw [hemb, Gcn.rowsTimes_ix2]
  refine (pay_apply _ _ p q).trans ?_
  refine Finset.sum_congr rfl fun k _ => ?_
  rw [lhs_block V c t (ix2 p k) (ix2 ⟨5000 * t.val + p.val, by omega⟩ k) rfl rfl, rhs_block V c t (ix2 k q)]

/-- An index of the array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v32).slice (win1_2.rect t)).set ↔ _
  rw [View.set_slice_whole, Rect.mem_set_unit]
  exact Iff.rfl

/-- The 20 row blocks tile the 100000 rows, so the array the region leaves is the whole product. -/
theorem final (c : Dev nD) : (dat1 V c).arrAt 2 cfg1.N = Gcn.rowsTimes (V c main_v31) (V c main_arg4) :=
  (dat1 V c).arrAt_eq_of_cover 2 (Gcn.rowsTimes (V c main_v31) (V c main_arg4)) (fun t _ => flushed_eq V c t) (fun i => by
    have hi0 : (i 0).val < 100000 := (i 0).isLt
    have hi1 : (i 1).val < 128 := (i 1).isLt
    have hN : cfg1.N = 20 := N_1
    refine ⟨⟨(i 0).val / 5000, by rw [hN]; omega⟩, flush1_2 _, ?_⟩
    rw [mem_blk]
    obtain ⟨-, -, -, -, e4, e5⟩ := idx_facts ⟨(i 0).val / 5000, by rw [hN]; omega⟩
    intro a
    match a with
    | ⟨0, _⟩ =>
      show win1_2.index _ 0 * 5000 ≤ (i 0).val ∧ (i 0).val < win1_2.index _ 0 * 5000 + 5000
      rw [e4]; show (i 0).val / 5000 * 5000 ≤ (i 0).val ∧ (i 0).val < (i 0).val / 5000 * 5000 + 5000; omega
    | ⟨1, _⟩ =>
      show win1_2.index _ 1 * 128 ≤ (i 1).val ∧ (i 1).val < win1_2.index _ 1 * 128 + 128
      rw [e5]; omega)

end Cert.KernelIdeal.Region1

end
-- ==== Proof.Region2.lean ====
/-
  The first graph layer's closing stage, a ↦ max(a + b₁, 0), as the array its blocked computation leaves.

  The computation walks the 100000 rows of the aggregated features a in 20 blocks of 5000: at block t it adds the bias
  row (a 1 × 128 matrix, read whole at every block) to each of rows 5000 t … 5000 t + 4999 and takes the maximum with zero,
  writing the same rows of the output. Entry (r, c) of a block's result is max(a(5000 t + r, c) + b(0, c), 0): entry
  (5000 t + r, c) of `Gcn.addRowRelu a b`. The row blocks tile the output, so the array left is `Gcn.addRowRelu a b`,
  whatever a and b hold when the stage is entered (`V`).
-/
import proofs.«159549_j78486232367508_1_alg».proof.Proof.Gen.KernelIdeal.Frame
import proofs.«159549_j78486232367508_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

/-- The zero offset of a whole-buffer access, as a constant function. -/
theorem hz : (![0, 0] : Fin 2 → Nat) = fun _ => 0 := funext fun a => by fin_cases a <;> rfl

/-- Entry (r, c) of a block's result: the block's entry plus the bias row's entry c, then the maximum with zero. -/
theorem pay_apply (x0 : Vec Ideal S5000x128 .f32) (x1 : Vec Ideal S1x128 .f32) (p : Fin 5000) (q : Fin 128) :
    k2_pay1 (F := Ideal) x0 x1 (ix2 p q) = max (x0 (ix2 p q) + x1 (ix2 0 q)) (Ideal.ofBits .f32 0x00000000#32) := by
  unfold k2_pay1
  show max (shapeCast S5000x128 x0 shapeCasts_S5000x128_S5000x128 (ix2 p q)
      + broadcastTo S5000x128 (shapeCast S1x128 x1 shapeCasts_S1x128_S1x128) broadcasts_S1x128_S5000x128 (ix2 p q)) _ = _
  rw [shapeCast_self, broadcastTo_1b_ab_apply, shapeCast_self]
  rfl

variable (V : (c : Dev nD) → (b : Ref sig .tc) → Buf (Elt Ideal) ((c : Thread nD τ).loc b))

/-- The printed block-index maps over the grid: the row blocks move with the point, the bias row stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Block t of the aggregated features is rows 5000 t … 5000 t + 4999 of the array the stage finds. -/
theorem rows_block (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v45 : S100000x128.Idx → Elt Ideal .f32) k := by
  obtain ⟨e0, e1, -⟩ := idx_facts t
  unfold iblk2
  rw [View.read_apply]
  show V c main_v45 _ = V c main_v45 _
  refine congrArg (V c main_v45) ?_
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- Every point reads the whole bias row. -/
theorem bias_block (c : Dev nD) (t : Fin cfg2.N) (x : S1x128.Idx) :
    (iblk2 V c 1 t : Vec Ideal S1x128 .f32) x = (V c main_v46 : S1x128.Idx → Elt Ideal .f32) x := by
  obtain ⟨-, -, e2, e3, -⟩ := idx_facts t
  unfold iblk2
  rw [View.read_apply]
  show V c main_v46 _ = V c main_v46 _
  refine congrArg (V c main_v46) ?_
  funext a
  apply Fin.ext
  match a with
  | ⟨0, _⟩ => show win2_1.index t 0 * 1 + 1 * (x 0).val = (x 0).val; rw [e2]; omega
  | ⟨1, _⟩ => show win2_1.index t 1 * 128 + 1 * (x 1).val = (x 1).val; rw [e3]; omega

/-- What point t writes back is block t of the whole-array function. -/
theorem flushed_eq (c : Dev nD) (t : Fin cfg2.N) :
    (dat2 V c).flushed 2 t = ((cfg2.win 2).blk t).view.read (Elt Ideal) (Gcn.addRowRelu (V c main_v45) (V c main_v46)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  funext y
  show k2_pay1 (iblk2 V c 0 t) (iblk2 V c 1 t) y = Gcn.addRowRelu (V c main_v45) (V c main_v46) (((cfg2.win 2).blk t).view.emb y)
  obtain ⟨p, q, rfl⟩ : ∃ (p : Fin 5000) (q : Fin 128), y = ix2 p q := ⟨y 0, y 1, eq_ix2 y⟩
  obtain ⟨-, -, -, -, e4, e5⟩ := idx_facts t
  have ht : t.val < 20 := lt_of_lt_of_eq t.isLt N_2
  have hemb : ((cfg2.win 2).blk t).view.emb (ix2 p q) = ix2 (n0 := 100000) (n1 := 128) ⟨5000 * t.val + p.val, by omega⟩ q := by
    funext a
    apply Fin.ext
    match a with
    | ⟨0, _⟩ => show win2_2.index t 0 * 5000 + 1 * p.val = 5000 * t.val + p.val; rw [e4]; omega
    | ⟨1, _⟩ => show win2_2.index t 1 * 128 + 1 * q.val = q.val; rw [e5]; omega
  rw [hemb, Gcn.addRowRelu_ix2]
  refine (pay_apply _ _ p q).trans ?_
  rw [rows_block V c t (ix2 p q) (ix2 ⟨5000 * t.val + p.val, by omega⟩ q) rfl rfl, bias_block V c t (ix2 0 q)]

/-- An index of the array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- The 20 row blocks tile the 100000 rows, so the array the stage leaves is the whole-array function. -/
theorem final (c : Dev nD) : (dat2 V c).arrAt 2 cfg2.N = Gcn.addRowRelu (V c main_v45) (V c main_v46) :=
  (dat2 V c).arrAt_eq_of_cover 2 (Gcn.addRowRelu (V c main_v45) (V c main_v46)) (fun t _ => flushed_eq V c t) (fun i => by
    have hi0 : (i 0).val < 100000 := (i 0).isLt
    have hi1 : (i 1).val < 128 := (i 1).isLt
    have hN : cfg2.N = 20 := N_2
    refine ⟨⟨(i 0).val / 5000, by rw [hN]; omega⟩, flush2_2 _, ?_⟩
    rw [mem_blk]
    obtain ⟨-, -, -, -, e4, e5⟩ := idx_facts ⟨(i 0).val / 5000, by rw [hN]; omega⟩
    intro a
    match a with
    | ⟨0, _⟩ =>
      show win2_2.index _ 0 * 5000 ≤ (i 0).val ∧ (i 0).val < win2_2.index _ 0 * 5000 + 5000
      rw [e4]; show (i 0).val / 5000 * 5000 ≤ (i 0).val ∧ (i 0).val < (i 0).val / 5000 * 5000 + 5000; omega
    | ⟨1, _⟩ =>
      show win2_2.index _ 1 * 128 ≤ (i 1).val ∧ (i 1).val < win2_2.index _ 1 * 128 + 128
      rw [e5]; omega)

end Cert.KernelIdeal.Region2

end
-- ==== Proof.Region3.lean ====
/-
  The second graph layer's dense transform, h ↦ h · w₂, as the array its blocked computation leaves.

  The computation walks the 100000 rows of h in 20 blocks of 5000: at block t it multiplies rows 5000 t … 5000 t + 4999
  of h by the whole 128 × 128 weight matrix (the narrowing of both operands before the product is the identity over
  the extended reals, and the product accumulates into zero) and writes the 5000 × 128 result to the same rows of the
  output. Entry (r, c) of a block's product is ∑ₖ h(5000 t + r, k) · w(k, c): exactly entry (5000 t + r, c) of the
  whole product `Gcn.rowsTimes h w`. The 20 row blocks tile the output, so the array left is `Gcn.rowsTimes h w`,
  whatever the arrays h and w hold when the stage is entered (`V`).
-/
import proofs.«159549_j78486232367508_1_alg».proof.Proof.Gen.KernelIdeal.Frame
import proofs.«159549_j78486232367508_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

/-- The zero offset of a whole-buffer access, as a constant function. -/
theorem hz : (![0, 0] : Fin 2 → Nat) = fun _ => 0 := funext fun a => by fin_cases a <;> rfl

/-- The left operand's row coordinate at an output entry is the entry's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's column coordinate at an output entry is the entry's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, c) of a block's product: the sum over the 128 hidden channels. -/
theorem pay_apply (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  simp only [matmul]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_1 _ _)
  show shapeCast S5000x128 x0 shapeCasts_S5000x128_S5000x128 _ * x1 _ = _
  rw [el, er, shapeCast_self]

variable (V : (c : Dev nD) → (b : Ref sig .tc) → Buf (Elt Ideal) ((c : Thread nD τ).loc b))

/-- The printed block-index maps over the grid: the row blocks move with the point, the weights stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Block t of the left operand is rows 5000 t … 5000 t + 4999 of the array the region finds. -/
theorem lhs_block (c : Dev nD) (t : Fin cfg3.N) (x : S5000x128.Idx) (k : S100000x128.Idx)
    (hk0 : (k 0).val = 5000 * t.val + (x 0).val) (hk1 : (k 1).val = (x 1).val) :
    (iblk3 V c 0 t : Vec Ideal S5000x128 .f32) x = (V c main_v47 : S100000x128.Idx → Elt Ideal .f32) k := by
  obtain ⟨e0, e1, -⟩ := idx_facts t
  unfold iblk3
  rw [View.read_apply]
  show V c main_v47 _ = V c main_v47 _
  refine congrArg (V c main_v47) ?_
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- Every point reads the whole weight matrix. -/
theorem rhs_block (c : Dev nD) (t : Fin cfg3.N) (x : S128x128.Idx) :
    (iblk3 V c 1 t : Vec Ideal S128x128 .f32) x = (V c main_arg6 : S128x128.Idx → Elt Ideal .f32) x := by
  obtain ⟨-, -, e2, e3, -⟩ := idx_facts t
  unfold iblk3
  rw [View.read_apply]
  show V c main_arg6 _ = V c main_arg6 _
  refine congrArg (V c main_arg6) ?_
  funext a
  apply Fin.ext
  match a with
  | ⟨0, _⟩ => show win3_1.index t 0 * 128 + 1 * (x 0).val = (x 0).val; rw [e2]; omega
  | ⟨1, _⟩ => show win3_1.index t 1 * 128 + 1 * (x 1).val = (x 1).val; rw [e3]; omega

/-- What point t writes back is block t of the whole product. -/
theorem flushed_eq (c : Dev nD) (t : Fin cfg3.N) :
    (dat3 V c).flushed 2 t = ((cfg3.win 2).blk t).view.read (Elt Ideal) (Gcn.rowsTimes (V c main_v47) (V c main_arg6)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  funext y
  show k3_pay1 (iblk3 V c 0 t) (iblk3 V c 1 t) y = Gcn.rowsTimes (V c main_v47) (V c main_arg6) (((cfg3.win 2).blk t).view.emb y)
  obtain ⟨p, q, rfl⟩ : ∃ (p : Fin 5000) (q : Fin 128), y = ix2 p q := ⟨y 0, y 1, eq_ix2 y⟩
  obtain ⟨-, -, -, -, e4, e5⟩ := idx_facts t
  have ht : t.val < 20 := lt_of_lt_of_eq t.isLt N_3
  have hemb : ((cfg3.win 2).blk t).view.emb (ix2 p q) = ix2 (n0 := 100000) (n1 := 128) ⟨5000 * t.val + p.val, by omega⟩ q := by
    funext a
    apply Fin.ext
    match a with
    | ⟨0, _⟩ => show win3_2.index t 0 * 5000 + 1 * p.val = 5000 * t.val + p.val; rw [e4]; omega
    | ⟨1, _⟩ => show win3_2.index t 1 * 128 + 1 * q.val = q.val; rw [e5]; omega
  rw [hemb, Gcn.rowsTimes_ix2]
  refine (pay_apply _ _ p q).trans ?_
  refine Finset.sum_congr rfl fun k _ => ?_
  rw [lhs_block V c t (ix2 p k) (ix2 ⟨5000 * t.val + p.val, by omega⟩ k) rfl rfl, rhs_block V c t (ix2 k q)]

/-- An index of the array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v48).slice (win3_2.rect t)).set ↔ _
  rw [View.set_slice_whole, Rect.mem_set_unit]
  exact Iff.rfl

/-- The 20 row blocks tile the 100000 rows, so the array the region leaves is the whole product. -/
theorem final (c : Dev nD) : (dat3 V c).arrAt 2 cfg3.N = Gcn.rowsTimes (V c main_v47) (V c main_arg6) :=
  (dat3 V c).arrAt_eq_of_cover 2 (Gcn.rowsTimes (V c main_v47) (V c main_arg6)) (fun t _ => flushed_eq V c t) (fun i => by
    have hi0 : (i 0).val < 100000 := (i 0).isLt
    have hi1 : (i 1).val < 128 := (i 1).isLt
    have hN : cfg3.N = 20 := N_3
    refine ⟨⟨(i 0).val / 5000, by rw [hN]; omega⟩, flush3_2 _, ?_⟩
    rw [mem_blk]
    obtain ⟨-, -, -, -, e4, e5⟩ := idx_facts ⟨(i 0).val / 5000, by rw [hN]; omega⟩
    intro a
    match a with
    | ⟨0, _⟩ =>
      show win3_2.index _ 0 * 5000 ≤ (i 0).val ∧ (i 0).val < win3_2.index _ 0 * 5000 + 5000
      rw [e4]; show (i 0).val / 5000 * 5000 ≤ (i 0).val ∧ (i 0).val < (i 0).val / 5000 * 5000 + 5000; omega
    | ⟨1, _⟩ =>
      show win3_2.index _ 1 * 128 ≤ (i 1).val ∧ (i 1).val < win3_2.index _ 1 * 128 + 128
      rw [e5]; omega)

end Cert.KernelIdeal.Region3

end
-- ==== Proof.Region4.lean ====
/-
  The second graph layer's closing stage, a ↦ max(a + b₂, 0), as the array its blocked computation leaves.

  The computation walks the 100000 rows of the aggregated features a in 20 blocks of 5000: at block t it adds the bias
  row (a 1 × 128 matrix, read whole at every block) to each of rows 5000 t … 5000 t + 4999 and takes the maximum with zero,
  writing the same rows of the output. Entry (r, c) of a block's result is max(a(5000 t + r, c) + b(0, c), 0): entry
  (5000 t + r, c) of `Gcn.addRowRelu a b`. The row blocks tile the output, so the array left is `Gcn.addRowRelu a b`,
  whatever a and b hold when the stage is entered (`V`).
-/
import proofs.«159549_j78486232367508_1_alg».proof.Proof.Gen.KernelIdeal.Frame
import proofs.«159549_j78486232367508_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

/-- The zero offset of a whole-buffer access, as a constant function. -/
theorem hz : (![0, 0] : Fin 2 → Nat) = fun _ => 0 := funext fun a => by fin_cases a <;> rfl

/-- Entry (r, c) of a block's result: the block's entry plus the bias row's entry c, then the maximum with zero. -/
theorem pay_apply (x0 : Vec Ideal S5000x128 .f32) (x1 : Vec Ideal S1x128 .f32) (p : Fin 5000) (q : Fin 128) :
    k4_pay1 (F := Ideal) x0 x1 (ix2 p q) = max (x0 (ix2 p q) + x1 (ix2 0 q)) (Ideal.ofBits .f32 0x00000000#32) := by
  unfold k4_pay1
  show max (shapeCast S5000x128 x0 shapeCasts_S5000x128_S5000x128 (ix2 p q)
      + broadcastTo S5000x128 (shapeCast S1x128 x1 shapeCasts_S1x128_S1x128) broadcasts_S1x128_S5000x128 (ix2 p q)) _ = _
  rw [shapeCast_self, broadcastTo_1b_ab_apply, shapeCast_self]
  rfl

variable (V : (c : Dev nD) → (b : Ref sig .tc) → Buf (Elt Ideal) ((c : Thread nD τ).loc b))

/-- The printed block-index maps over the grid: the row blocks move with the point, the bias row stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Block t of the aggregated features is rows 5000 t … 5000 t + 4999 of the array the stage finds. -/
theorem rows_block (c : Dev nD) (t : Fin cfg4.N) (x : S5000x128.Idx) (k : S100000x128.Idx)
    (hk0 : (k 0).val = 5000 * t.val + (x 0).val) (hk1 : (k 1).val = (x 1).val) :
    (iblk4 V c 0 t : Vec Ideal S5000x128 .f32) x = (V c main_v61 : S100000x128.Idx → Elt Ideal .f32) k := by
  obtain ⟨e0, e1, -⟩ := idx_facts t
  unfold iblk4
  rw [View.read_apply]
  show V c main_v61 _ = V c main_v61 _
  refine congrArg (V c main_v61) ?_
  funext a
  apply Fin.ext
  match a with
  | ⟨0, _⟩ => show win4_0.index t 0 * 5000 + 1 * (x 0).val = (k 0).val; rw [e0, hk0]; omega
  | ⟨1, _⟩ => show win4_0.index t 1 * 128 + 1 * (x 1).val = (k 1).val; rw [e1, hk1]; omega

/-- Every point reads the whole bias row. -/
theorem bias_block (c : Dev nD) (t : Fin cfg4.N) (x : S1x128.Idx) :
    (iblk4 V c 1 t : Vec Ideal S1x128 .f32) x = (V c main_v62 : S1x128.Idx → Elt Ideal .f32) x := by
  obtain ⟨-, -, e2, e3, -⟩ := idx_facts t
  unfold iblk4
  rw [View.read_apply]
  show V c main_v62 _ = V c main_v62 _
  refine congrArg (V c main_v62) ?_
  funext a
  apply Fin.ext
  match a with
  | ⟨0, _⟩ => show win4_1.index t 0 * 1 + 1 * (x 0).val = (x 0).val; rw [e2]; omega
  | ⟨1, _⟩ => show win4_1.index t 1 * 128 + 1 * (x 1).val = (x 1).val; rw [e3]; omega

/-- What point t writes back is block t of the whole-array function. -/
theorem flushed_eq (c : Dev nD) (t : Fin cfg4.N) :
    (dat4 V c).flushed 2 t = ((cfg4.win 2).blk t).view.read (Elt Ideal) (Gcn.addRowRelu (V c main_v61) (V c main_v62)) := by
  show (cfg4.win 2).cut (grid4.coords t) ((dat4 V c).after 2 t) = _
  rw [after4_2]
  unfold out4_2
  rw [View.canon_unit_zero hz]
  simp only [View.ld_unit_zero (S := S5000x128) hz, View.ld_unit_zero (S := S1x128) hz]
  funext y
  show k4_pay1 (iblk4 V c 0 t) (iblk4 V c 1 t) y = Gcn.addRowRelu (V c main_v61) (V c main_v62) (((cfg4.win 2).blk t).view.emb y)
  obtain ⟨p, q, rfl⟩ : ∃ (p : Fin 5000) (q : Fin 128), y = ix2 p q := ⟨y 0, y 1, eq_ix2 y⟩
  obtain ⟨-, -, -, -, e4, e5⟩ := idx_facts t
  have ht : t.val < 20 := lt_of_lt_of_eq t.isLt N_4
  have hemb : ((cfg4.win 2).blk t).view.emb (ix2 p q) = ix2 (n0 := 100000) (n1 := 128) ⟨5000 * t.val + p.val, by omega⟩ q := by
    funext a
    apply Fin.ext
    match a with
    | ⟨0, _⟩ => show win4_2.index t 0 * 5000 + 1 * p.val = 5000 * t.val + p.val; rw [e4]; omega
    | ⟨1, _⟩ => show win4_2.index t 1 * 128 + 1 * q.val = q.val; rw [e5]; omega
  rw [hemb, Gcn.addRowRelu_ix2]
  refine (pay_apply _ _ p q).trans ?_
  rw [rows_block V c t (ix2 p q) (ix2 ⟨5000 * t.val + p.val, by omega⟩ q) rfl rfl, bias_block V c t (ix2 0 q)]

/-- An index of the array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v63).slice (win4_2.rect t)).set ↔ _
  rw [View.set_slice_whole, Rect.mem_set_unit]
  exact Iff.rfl

/-- The 20 row blocks tile the 100000 rows, so the array the stage leaves is the whole-array function. -/
theorem final (c : Dev nD) : (dat4 V c).arrAt 2 cfg4.N = Gcn.addRowRelu (V c main_v61) (V c main_v62) :=
  (dat4 V c).arrAt_eq_of_cover 2 (Gcn.addRowRelu (V c main_v61) (V c main_v62)) (fun t _ => flushed_eq V c t) (fun i => by
    have hi0 : (i 0).val < 100000 := (i 0).isLt
    have hi1 : (i 1).val < 128 := (i 1).isLt
    have hN : cfg4.N = 20 := N_4
    refine ⟨⟨(i 0).val / 5000, by rw [hN]; omega⟩, flush4_2 _, ?_⟩
    rw [mem_blk]
    obtain ⟨-, -, -, -, e4, e5⟩ := idx_facts ⟨(i 0).val / 5000, by rw [hN]; omega⟩
    intro a
    match a with
    | ⟨0, _⟩ =>
      show win4_2.index _ 0 * 5000 ≤ (i 0).val ∧ (i 0).val < win4_2.index _ 0 * 5000 + 5000
      rw [e4]; show (i 0).val / 5000 * 5000 ≤ (i 0).val ∧ (i 0).val < (i 0).val / 5000 * 5000 + 5000; omega
    | ⟨1, _⟩ =>
      show win4_2.index _ 1 * 128 ≤ (i 1).val ∧ (i 1).val < win4_2.index _ 1 * 128 + 128
      rw [e5]; omega)

end Cert.KernelIdeal.Region4

end
-- ==== Proof.Region5.lean ====
/-
  The third graph layer's dense transform, h ↦ h · w₃, as the array its blocked computation leaves.

  The computation walks the 100000 rows of h in 20 blocks of 5000: at block t it multiplies rows 5000 t … 5000 t + 4999
  of h by the whole 128 × 128 weight matrix (the narrowing of both operands before the product is the identity over
  the extended reals, and the product accumulates into zero) and writes the 5000 × 128 result to the same rows of the
  output. Entry (r, c) of a block's product is ∑ₖ h(5000 t + r, k) · w(k, c): exactly entry (5000 t + r, c) of the
  whole product `Gcn.rowsTimes h w`. The 20 row blocks tile the output, so the array left is `Gcn.rowsTimes h w`,
  whatever the arrays h and w hold when the stage is entered (`V`).
-/
import proofs.«159549_j78486232367508_1_alg».proof.Proof.Gen.KernelIdeal.Frame
import proofs.«159549_j78486232367508_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen

/-- The zero offset of a whole-buffer access, as a constant function. -/
theorem hz : (![0, 0] : Fin 2 → Nat) = fun _ => 0 := funext fun a => by fin_cases a <;> rfl

/-- The left operand's row coordinate at an output entry is the entry's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's column coordinate at an output entry is the entry's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, c) of a block's product: the sum over the 128 hidden channels. -/
theorem pay_apply (x0 : Vec Ideal S5000x128 .f32) (x1 : Vec Ideal S128x128 .f32) (p : Fin 5000) (q : Fin 128) :
    k5_pay1 (F := Ideal) x0 x1 (ix2 p q) = ∑ k : Fin 128, x0 (ix2 p k) * x1 (ix2 k q) := by
  unfold k5_pay1
  simp only [matmul]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_1 _ _)
  show shapeCast S5000x128 x0 shapeCasts_S5000x128_S5000x128 _ * x1 _ = _
  rw [el, er, shapeCast_self]

variable (V : (c : Dev nD) → (b : Ref sig .tc) → Buf (Elt Ideal) ((c : Thread nD τ).loc b))

/-- The printed block-index maps over the grid: the row blocks move with the point, the weights stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Block t of the left operand is rows 5000 t … 5000 t + 4999 of the array the region finds. -/
theorem lhs_block (c : Dev nD) (t : Fin cfg5.N) (x : S5000x128.Idx) (k : S100000x128.Idx)
    (hk0 : (k 0).val = 5000 * t.val + (x 0).val) (hk1 : (k 1).val = (x 1).val) :
    (iblk5 V c 0 t : Vec Ideal S5000x128 .f32) x = (V c main_v63 : S100000x128.Idx → Elt Ideal .f32) k := by
  obtain ⟨e0, e1, -⟩ := idx_facts t
  unfold iblk5
  rw [View.read_apply]
  show V c main_v63 _ = V c main_v63 _
  refine congrArg (V c main_v63) ?_
  funext a
  apply Fin.ext
  match a with
  | ⟨0, _⟩ => show win5_0.index t 0 * 5000 + 1 * (x 0).val = (k 0).val; rw [e0, hk0]; omega
  | ⟨1, _⟩ => show win5_0.index t 1 * 128 + 1 * (x 1).val = (k 1).val; rw [e1, hk1]; omega

/-- Every point reads the whole weight matrix. -/
theorem rhs_block (c : Dev nD) (t : Fin cfg5.N) (x : S128x128.Idx) :
    (iblk5 V c 1 t : Vec Ideal S128x128 .f32) x = (V c main_arg8 : S128x128.Idx → Elt Ideal .f32) x := by
  obtain ⟨-, -, e2, e3, -⟩ := idx_facts t
  unfold iblk5
  rw [View.read_apply]
  show V c main_arg8 _ = V c main_arg8 _
  refine congrArg (V c main_arg8) ?_
  funext a
  apply Fin.ext
  match a with
  | ⟨0, _⟩ => show win5_1.index t 0 * 128 + 1 * (x 0).val = (x 0).val; rw [e2]; omega
  | ⟨1, _⟩ => show win5_1.index t 1 * 128 + 1 * (x 1).val = (x 1).val; rw [e3]; omega

/-- What point t writes back is block t of the whole product. -/
theorem flushed_eq (c : Dev nD) (t : Fin cfg5.N) :
    (dat5 V c).flushed 2 t = ((cfg5.win 2).blk t).view.read (Elt Ideal) (Gcn.rowsTimes (V c main_v63) (V c main_arg8)) := by
  show (cfg5.win 2).cut (grid5.coords t) ((dat5 V c).after 2 t) = _
  rw [after5_2]
  unfold out5_2
  rw [View.canon_unit_zero hz]
  simp only [View.ld_unit_zero (S := S5000x128) hz, View.ld_unit_zero (S := S128x128) hz]
  funext y
  show k5_pay1 (iblk5 V c 0 t) (iblk5 V c 1 t) y = Gcn.rowsTimes (V c main_v63) (V c main_arg8) (((cfg5.win 2).blk t).view.emb y)
  obtain ⟨p, q, rfl⟩ : ∃ (p : Fin 5000) (q : Fin 128), y = ix2 p q := ⟨y 0, y 1, eq_ix2 y⟩
  obtain ⟨-, -, -, -, e4, e5⟩ := idx_facts t
  have ht : t.val < 20 := lt_of_lt_of_eq t.isLt N_5
  have hemb : ((cfg5.win 2).blk t).view.emb (ix2 p q) = ix2 (n0 := 100000) (n1 := 128) ⟨5000 * t.val + p.val, by omega⟩ q := by
    funext a
    apply Fin.ext
    match a with
    | ⟨0, _⟩ => show win5_2.index t 0 * 5000 + 1 * p.val = 5000 * t.val + p.val; rw [e4]; omega
    | ⟨1, _⟩ => show win5_2.index t 1 * 128 + 1 * q.val = q.val; rw [e5]; omega
  rw [hemb, Gcn.rowsTimes_ix2]
  refine (pay_apply _ _ p q).trans ?_
  refine Finset.sum_congr rfl fun k _ => ?_
  rw [lhs_block V c t (ix2 p k) (ix2 ⟨5000 * t.val + p.val, by omega⟩ k) rfl rfl, rhs_block V c t (ix2 k q)]

/-- An index of the array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v64).slice (win5_2.rect t)).set ↔ _
  rw [View.set_slice_whole, Rect.mem_set_unit]
  exact Iff.rfl

/-- The 20 row blocks tile the 100000 rows, so the array the region leaves is the whole product. -/
theorem final (c : Dev nD) : (dat5 V c).arrAt 2 cfg5.N = Gcn.rowsTimes (V c main_v63) (V c main_arg8) :=
  (dat5 V c).arrAt_eq_of_cover 2 (Gcn.rowsTimes (V c main_v63) (V c main_arg8)) (fun t _ => flushed_eq V c t) (fun i => by
    have hi0 : (i 0).val < 100000 := (i 0).isLt
    have hi1 : (i 1).val < 128 := (i 1).isLt
    have hN : cfg5.N = 20 := N_5
    refine ⟨⟨(i 0).val / 5000, by rw [hN]; omega⟩, flush5_2 _, ?_⟩
    rw [mem_blk]
    obtain ⟨-, -, -, -, e4, e5⟩ := idx_facts ⟨(i 0).val / 5000, by rw [hN]; omega⟩
    intro a
    match a with
    | ⟨0, _⟩ =>
      show win5_2.index _ 0 * 5000 ≤ (i 0).val ∧ (i 0).val < win5_2.index _ 0 * 5000 + 5000
      rw [e4]; show (i 0).val / 5000 * 5000 ≤ (i 0).val ∧ (i 0).val < (i 0).val / 5000 * 5000 + 5000; omega
    | ⟨1, _⟩ =>
      show win5_2.index _ 1 * 128 ≤ (i 1).val ∧ (i 1).val < win5_2.index _ 1 * 128 + 128
      rw [e5]; omega)

end Cert.KernelIdeal.Region5

end
-- ==== Proof.Region6.lean ====
/-
  The third graph layer's closing stage, a ↦ max(a + b₃, 0), as the array its blocked computation leaves.

  The computation walks the 100000 rows of the aggregated features a in 20 blocks of 5000: at block t it adds the bias
  row (a 1 × 128 matrix, read whole at every block) to each of rows 5000 t … 5000 t + 4999 and takes the maximum with zero,
  writing the same rows of the output. Entry (r, c) of a block's result is max(a(5000 t + r, c) + b(0, c), 0): entry
  (5000 t + r, c) of `Gcn.addRowRelu a b`. The row blocks tile the output, so the array left is `Gcn.addRowRelu a b`,
  whatever a and b hold when the stage is entered (`V`).
-/
import proofs.«159549_j78486232367508_1_alg».proof.Proof.Gen.KernelIdeal.Frame
import proofs.«159549_j78486232367508_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region6

open Cert.KernelIdeal Cert.KernelIdeal.Gen

/-- The zero offset of a whole-buffer access, as a constant function. -/
theorem hz : (![0, 0] : Fin 2 → Nat) = fun _ => 0 := funext fun a => by fin_cases a <;> rfl

/-- Entry (r, c) of a block's result: the block's entry plus the bias row's entry c, then the maximum with zero. -/
theorem pay_apply (x0 : Vec Ideal S5000x128 .f32) (x1 : Vec Ideal S1x128 .f32) (p : Fin 5000) (q : Fin 128) :
    k6_pay1 (F := Ideal) x0 x1 (ix2 p q) = max (x0 (ix2 p q) + x1 (ix2 0 q)) (Ideal.ofBits .f32 0x00000000#32) := by
  unfold k6_pay1
  show max (shapeCast S5000x128 x0 shapeCasts_S5000x128_S5000x128 (ix2 p q)
      + broadcastTo S5000x128 (shapeCast S1x128 x1 shapeCasts_S1x128_S1x128) broadcasts_S1x128_S5000x128 (ix2 p q)) _ = _
  rw [shapeCast_self, broadcastTo_1b_ab_apply, shapeCast_self]
  rfl

variable (V : (c : Dev nD) → (b : Ref sig .tc) → Buf (Elt Ideal) ((c : Thread nD τ).loc b))

/-- The printed block-index maps over the grid: the row blocks move with the point, the bias row stays. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Block t of the aggregated features is rows 5000 t … 5000 t + 4999 of the array the stage finds. -/
theorem rows_block (c : Dev nD) (t : Fin cfg6.N) (x : S5000x128.Idx) (k : S100000x128.Idx)
    (hk0 : (k 0).val = 5000 * t.val + (x 0).val) (hk1 : (k 1).val = (x 1).val) :
    (iblk6 V c 0 t : Vec Ideal S5000x128 .f32) x = (V c main_v77 : S100000x128.Idx → Elt Ideal .f32) k := by
  obtain ⟨e0, e1, -⟩ := idx_facts t
  unfold iblk6
  rw [View.read_apply]
  show V c main_v77 _ = V c main_v77 _
  refine congrArg (V c main_v77) ?_
  funext a
  apply Fin.ext
  match a with
  | ⟨0, _⟩ => show win6_0.index t 0 * 5000 + 1 * (x 0).val = (k 0).val; rw [e0, hk0]; omega
  | ⟨1, _⟩ => show win6_0.index t 1 * 128 + 1 * (x 1).val = (k 1).val; rw [e1, hk1]; omega

/-- Every point reads the whole bias row. -/
theorem bias_block (c : Dev nD) (t : Fin cfg6.N) (x : S1x128.Idx) :
    (iblk6 V c 1 t : Vec Ideal S1x128 .f32) x = (V c main_v78 : S1x128.Idx → Elt Ideal .f32) x := by
  obtain ⟨-, -, e2, e3, -⟩ := idx_facts t
  unfold iblk6
  rw [View.read_apply]
  show V c main_v78 _ = V c main_v78 _
  refine congrArg (V c main_v78) ?_
  funext a
  apply Fin.ext
  match a with
  | ⟨0, _⟩ => show win6_1.index t 0 * 1 + 1 * (x 0).val = (x 0).val; rw [e2]; omega
  | ⟨1, _⟩ => show win6_1.index t 1 * 128 + 1 * (x 1).val = (x 1).val; rw [e3]; omega

/-- What point t writes back is block t of the whole-array function. -/
theorem flushed_eq (c : Dev nD) (t : Fin cfg6.N) :
    (dat6 V c).flushed 2 t = ((cfg6.win 2).blk t).view.read (Elt Ideal) (Gcn.addRowRelu (V c main_v77) (V c main_v78)) := by
  show (cfg6.win 2).cut (grid6.coords t) ((dat6 V c).after 2 t) = _
  rw [after6_2]
  unfold out6_2
  rw [View.canon_unit_zero hz]
  simp only [View.ld_unit_zero (S := S5000x128) hz, View.ld_unit_zero (S := S1x128) hz]
  funext y
  show k6_pay1 (iblk6 V c 0 t) (iblk6 V c 1 t) y = Gcn.addRowRelu (V c main_v77) (V c main_v78) (((cfg6.win 2).blk t).view.emb y)
  obtain ⟨p, q, rfl⟩ : ∃ (p : Fin 5000) (q : Fin 128), y = ix2 p q := ⟨y 0, y 1, eq_ix2 y⟩
  obtain ⟨-, -, -, -, e4, e5⟩ := idx_facts t
  have ht : t.val < 20 := lt_of_lt_of_eq t.isLt N_6
  have hemb : ((cfg6.win 2).blk t).view.emb (ix2 p q) = ix2 (n0 := 100000) (n1 := 128) ⟨5000 * t.val + p.val, by omega⟩ q := by
    funext a
    apply Fin.ext
    match a with
    | ⟨0, _⟩ => show win6_2.index t 0 * 5000 + 1 * p.val = 5000 * t.val + p.val; rw [e4]; omega
    | ⟨1, _⟩ => show win6_2.index t 1 * 128 + 1 * q.val = q.val; rw [e5]; omega
  rw [hemb, Gcn.addRowRelu_ix2]
  refine (pay_apply _ _ p q).trans ?_
  rw [rows_block V c t (ix2 p q) (ix2 ⟨5000 * t.val + p.val, by omega⟩ q) rfl rfl, bias_block V c t (ix2 0 q)]

/-- An index of the array is in point t's block iff each coordinate is in the block's range on its axis. -/
theorem mem_blk (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v79).slice (win6_2.rect t)).set ↔ _
  rw [View.set_slice_whole, Rect.mem_set_unit]
  exact Iff.rfl

/-- The 20 row blocks tile the 100000 rows, so the array the stage leaves is the whole-array function. -/
theorem final (c : Dev nD) : (dat6 V c).arrAt 2 cfg6.N = Gcn.addRowRelu (V c main_v77) (V c main_v78) :=
  (dat6 V c).arrAt_eq_of_cover 2 (Gcn.addRowRelu (V c main_v77) (V c main_v78)) (fun t _ => flushed_eq V c t) (fun i => by
    have hi0 : (i 0).val < 100000 := (i 0).isLt
    have hi1 : (i 1).val < 128 := (i 1).isLt
    have hN : cfg6.N = 20 := N_6
    refine ⟨⟨(i 0).val / 5000, by rw [hN]; omega⟩, flush6_2 _, ?_⟩
    rw [mem_blk]
    obtain ⟨-, -, -, -, e4, e5⟩ := idx_facts ⟨(i 0).val / 5000, by rw [hN]; omega⟩
    intro a
    match a with
    | ⟨0, _⟩ =>
      show win6_2.index _ 0 * 5000 ≤ (i 0).val ∧ (i 0).val < win6_2.index _ 0 * 5000 + 5000
      rw [e4]; show (i 0).val / 5000 * 5000 ≤ (i 0).val ∧ (i 0).val < (i 0).val / 5000 * 5000 + 5000; omega
    | ⟨1, _⟩ =>
      show win6_2.index _ 1 * 128 ≤ (i 1).val ∧ (i 1).val < win6_2.index _ 1 * 128 + 128
      rw [e5]; omega)

end Cert.KernelIdeal.Region6

end
-- ==== Proof.Region7.lean ====
/-
  The decoder, h ↦ (h · W + b) · (1 − mask), as the array its blocked computation leaves.

  The computation walks the 100000 rows of the hidden features h in 20 blocks of 5000: at block t it multiplies rows
  5000 t … 5000 t + 4999 of h by the whole 128 × 3 weight matrix (the narrowing of both operands before the product is the
  identity over the extended reals, and the product accumulates into zero), adds the bias row, and scales each row r by one
  minus the mask column's entry for that row — the mask column is read in the same row blocks as h — writing the same rows
  of the output. Entry (r, c) of a block's result is (∑ₖ h(5000 t + r, k) · W(k, c) + b(0, c)) · (1 − mask(5000 t + r, 0)):
  entry (5000 t + r, c) of `Gcn.decode h W b mask`. The row blocks tile the output, so the array left is
  `Gcn.decode h W b mask`, whatever the four arrays hold when the stage is entered (`V`).
-/
import proofs.«159549_j78486232367508_1_alg».proof.Proof.Gen.KernelIdeal.Frame
import proofs.«159549_j78486232367508_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region7

open Cert.KernelIdeal Cert.KernelIdeal.Gen

/-- The zero offset of a whole-buffer access, as a constant function. -/
theorem hz : (![0, 0] : Fin 2 → Nat) = fun _ => 0 := funext fun a => by fin_cases a <;> rfl

/-- The left operand's row coordinate at an output entry is the entry's row. -/
theorem lhs_0 (i : S5000x3.Idx) (q : dot_S5000x128_S128x3_S5000x3_1_0_0_1_n_n.contr.Idx) :
    (dot_S5000x128_S128x3_S5000x3_1_0_0_1_n_n.lhsIdx i q 0).val = (i 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
/-- The right operand's column coordinate at an output entry is the entry's column. -/
theorem rhs_1 (i : S5000x3.Idx) (q : dot_S5000x128_S128x3_S5000x3_1_0_0_1_n_n.contr.Idx) :
    (dot_S5000x128_S128x3_S5000x3_1_0_0_1_n_n.rhsIdx i q 1).val = (i 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl

/-- Entry (r, c) of a block's product: the sum over the 128 hidden channels. -/
theorem dot_apply (x0 : Vec Ideal S5000x128 .f32) (x1 : Vec Ideal S128x3 .f32) (p : Fin 5000) (q : Fin 3) :
    matmul (F := Ideal) dot_S5000x128_S128x3_S5000x3_1_0_0_1_n_n none (truncf .bf16 (shapeCast S5000x128 x0 shapeCasts_S5000x128_S5000x128) bitsLt_bf16_f32) (truncf .bf16 x1 bitsLt_bf16_f32) (constant S5000x3 .f32 0x00000000#32) (ix2 p q)
      = ∑ k : Fin 128, x0 (ix2 p k) * x1 (ix2 k q) := by
  simp only [matmul]
  refine (Ideal.matmul_constant_zero_apply dot_S5000x128_S128x3_S5000x3_1_0_0_1_n_n none _ _ (ix2 p q)).trans ?_
  rw [← Equiv.sum_comp (contrEquiv1 dot_S5000x128_S128x3_S5000x3_1_0_0_1_n_n 128 rfl rfl).symm]
  refine Finset.sum_congr rfl fun k _ => ?_
  have hk := contrEquiv1_symm_val dot_S5000x128_S128x3_S5000x3_1_0_0_1_n_n 128 rfl rfl k
  have el : dot_S5000x128_S128x3_S5000x3_1_0_0_1_n_n.lhsIdx (ix2 p q) ((contrEquiv1 dot_S5000x128_S128x3_S5000x3_1_0_0_1_n_n 128 rfl rfl).symm k) = ix2 p k := funext fun a => Fin.ext (by
    match a with
    | ⟨0, _⟩ => exact lhs_0 _ _
    | ⟨1, _⟩ => exact (dot_S5000x128_S128x3_S5000x3_1_0_0_1_n_n.lhsIdx_val_of_single rfl _ _).trans hk)
  have er : dot_S5000x128_S128x3_S5000x3_1_0_0_1_n_n.rhsIdx (ix2 p q) ((contrEquiv1 dot_S5000x128_S128x3_S5000x3_1_0_0_1_n_n 128 rfl rfl).symm k) = ix2 k q := funext fun a => Fin.ext (by
    match a with
    | ⟨0, _⟩ => exact (dot_S5000x128_S128x3_S5000x3_1_0_0_1_n_n.rhsIdx_val_of_single rfl _ _).trans hk
    | ⟨1, _⟩ => exact rhs_1 _ _)
  show shapeCast S5000x128 x0 shapeCasts_S5000x128_S5000x128 _ * x1 _ = _
  rw [el, er, shapeCast_self]

/-- A one-column matrix spread over three columns reads, at (r, c), its entry (r, 0). -/
theorem column_spread (v : Vec Ideal S5000x1 .f32) (p : Fin 5000) (q : Fin 3) :
    broadcastTo S5000x3 v broadcasts_S5000x1_S5000x3 (ix2 p q) = v (ix2 p 0) := by
  refine broadcastTo_apply v broadcasts_S5000x1_S5000x3 (ix2 p q) (ix2 p 0) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-- Entry (r, c) of a block's result: (product + bias entry c) times one minus the row's mask entry. -/
theorem pay_apply (x0 : Vec Ideal S5000x128 .f32) (x1 : Vec Ideal S128x3 .f32) (x2 : Vec Ideal S1x3 .f32) (x3 : Vec Ideal S5000x1 .f32) (p : Fin 5000) (q : Fin 3) :
    k7_pay1 (F := Ideal) x0 x1 x2 x3 (ix2 p q)
      = ((∑ k : Fin 128, x0 (ix2 p k) * x1 (ix2 k q)) + x2 (ix2 0 q)) * (Ideal.ofBits .f32 0x3F800000#32 - x3 (ix2 p 0)) := by
  unfold k7_pay1
  show (matmul (F := Ideal) dot_S5000x128_S128x3_S5000x3_1_0_0_1_n_n none (truncf .bf16 (shapeCast S5000x128 x0 shapeCasts_S5000x128_S5000x128) bitsLt_bf16_f32) (truncf .bf16 x1 bitsLt_bf16_f32) (constant S5000x3 .f32 0x00000000#32) (ix2 p q)
      + broadcastTo S5000x3 (shapeCast S1x3 x2 shapeCasts_S1x3_S1x3) broadcasts_S1x3_S5000x3 (ix2 p q))
      * broadcastTo S5000x3 (subf (broadcast S5000x1 (Scalar.ofBits .f32 0x3F800000#32)) (shapeCast S5000x1 x3 shapeCasts_S5000x1_S5000x1)) broadcasts_S5000x1_S5000x3 (ix2 p q) = _
  rw [dot_apply, broadcastTo_1b_ab_apply, shapeCast_self, column_spread, shapeCast_self]
  rfl

variable (V : (c : Dev nD) → (b : Ref sig .tc) → Buf (Elt Ideal) ((c : Thread nD τ).loc b))

/-- The printed block-index maps over the grid: the row blocks of the features, of the mask column and of the output move
    with the point; the weights and the bias row stay. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- Block t of the hidden features is rows 5000 t … 5000 t + 4999 of the array the stage finds. -/
theorem rows_block (c : Dev nD) (t : Fin cfg7.N) (x : S5000x128.Idx) (k : S100000x128.Idx)
    (hk0 : (k 0).val = 5000 * t.val + (x 0).val) (hk1 : (k 1).val = (x 1).val) :
    (iblk7 V c 0 t : Vec Ideal S5000x128 .f32) x = (V c main_v79 : S100000x128.Idx → Elt Ideal .f32) k := by
  obtain ⟨e0, e1, -⟩ := idx_facts t
  unfold iblk7
  rw [View.read_apply]
  show V c main_v79 _ = V c main_v79 _
  refine congrArg (V c main_v79) ?_
  funext a
  apply Fin.ext
  match a with
  | ⟨0, _⟩ => show win7_0.index t 0 * 5000 + 1 * (x 0).val = (k 0).val; rw [e0, hk0]; omega
  | ⟨1, _⟩ => show win7_0.index t 1 * 128 + 1 * (x 1).val = (k 1).val; rw [e1, hk1]; omega

/-- Every point reads the whole weight matrix. -/
theorem weight_block (c : Dev nD) (t : Fin cfg7.N) (x : S128x3.Idx) :
    (iblk7 V c 1 t : Vec Ideal S128x3 .f32) x = (V c main_arg10 : S128x3.Idx → Elt Ideal .f32) x := by
  obtain ⟨-, -, e2, e3, -⟩ := idx_facts t
  unfold iblk7
  rw [View.read_apply]
  show V c main_arg10 _ = V c main_arg10 _
  refine congrArg (V c main_arg10) ?_
  funext a
  apply Fin.ext
  match a with
  | ⟨0, _⟩ => show win7_1.index t 0 * 128 + 1 * (x 0).val = (x 0).val; rw [e2]; omega
  | ⟨1, _⟩ => show win7_1.index t 1 * 3 + 1 * (x 1).val = (x 1).val; rw [e3]; omega

/-- Every point reads the whole bias row. -/
theorem bias_block (c : Dev nD) (t : Fin cfg7.N) (x : S1x3.Idx) :
    (iblk7 V c 2 t : Vec Ideal S1x3 .f32) x = (V c main_v81 : S1x3.Idx → Elt Ideal .f32) x := by
  obtain ⟨-, -, -, -, e4, e5, -⟩ := idx_facts t
  unfold iblk7
  rw [View.read_apply]
  show V c main_v81 _ = V c main_v81 _
  refine congrArg (V c main_v81) ?_
  funext a
  apply Fin.ext
  match a with
  | ⟨0, _⟩ => show win7_2.index t 0 * 1 + 1 * (x 0).val = (x 0).val; rw [e4]; omega
  | ⟨1, _⟩ => show win7_2.index t 1 * 3 + 1 * (x 1).val = (x 1).val; rw [e5]; omega

/-- Block t of the mask column is rows 5000 t … 5000 t + 4999 of the column the stage finds. -/
theorem mask_block (c : Dev nD) (t : Fin cfg7.N) (x : S5000x1.Idx) (k : S100000x1.Idx)
    (hk0 : (k 0).val = 5000 * t.val + (x 0).val) (hk1 : (k 1).val = (x 1).val) :
    (iblk7 V c 3 t : Vec Ideal S5000x1 .f32) x = (V c main_v80 : S100000x1.Idx → Elt Ideal .f32) k := by
  obtain ⟨-, -, -, -, -, -, e6, e7, -⟩ := idx_facts t
  unfold iblk7
  rw [View.read_apply]
  show V c main_v80 _ = V c main_v80 _
  refine congrArg (V c main_v80) ?_
  funext a
  apply Fin.ext
  match a with
  | ⟨0, _⟩ => show win7_3.index t 0 * 5000 + 1 * (x 0).val = (k 0).val; rw [e6, hk0]; omega
  | ⟨1, _⟩ => show win7_3.index t 1 * 1 + 1 * (x 1).val = (k 1).val; rw [e7, hk1]; omega

/-- What point t writes back is block t of the whole-array function. -/
theorem flushed_eq (c : Dev nD) (t : Fin cfg7.N) :
    (dat7 V c).flushed 4 t = ((cfg7.win 4).blk t).view.read (Elt Ideal) (Gcn.decode (V c main_v79) (V c main_arg10) (V c main_v81) (V c main_v80)) := by
  show (cfg7.win 4).cut (grid7.coords t) ((dat7 V c).after 4 t) = _
  rw [after7_4]
  unfold out7_4
  rw [View.canon_unit_zero hz]
  simp only [View.ld_unit_zero (S := S5000x128) hz, View.ld_unit_zero (S := S128x3) hz, View.ld_unit_zero (S := S1x3) hz, View.ld_unit_zero (S := S5000x1) hz]
  funext y
  show k7_pay1 (iblk7 V c 0 t) (iblk7 V c 1 t) (iblk7 V c 2 t) (iblk7 V c 3 t) y = Gcn.decode (V c main_v79) (V c main_arg10) (V c main_v81) (V c main_v80) (((cfg7.win 4).blk t).view.emb y)
  obtain ⟨p, q, rfl⟩ : ∃ (p : Fin 5000) (q : Fin 3), y = ix2 p q := ⟨y 0, y 1, eq_ix2 y⟩
  obtain ⟨-, -, -, -, -, -, -, -, e8, e9⟩ := idx_facts t
  have ht : t.val < 20 := lt_of_lt_of_eq t.isLt N_7
  have hemb : ((cfg7.win 4).blk t).view.emb (ix2 p q) = ix2 (n0 := 100000) (n1 := 3) ⟨5000 * t.val + p.val, by omega⟩ q := by
    funext a
    apply Fin.ext
    match a with
    | ⟨0, _⟩ => show win7_4.index t 0 * 5000 + 1 * p.val = 5000 * t.val + p.val; rw [e8]; omega
    | ⟨1, _⟩ => show win7_4.index t 1 * 3 + 1 * q.val = q.val; rw [e9]; omega
  rw [hemb, Gcn.decode_ix2, Gcn.rowsTimes_ix2]
  refine (pay_apply _ _ _ _ p q).trans ?_
  rw [bias_block V c t (ix2 0 q), mask_block V c t (ix2 p 0) (ix2 ⟨5000 * t.val + p.val, by omega⟩ 0) rfl rfl]
  refine congrArg (fun s => (s + _) * _) (Finset.sum_congr rfl fun k _ => ?_)
  rw [rows_block V c t (ix2 p k) (ix2 ⟨5000 * t.val + p.val, by omega⟩ k) rfl rfl, weight_block V c t (ix2 k q)]

/-- An index of the array is in point t's block iff each coordinate is in the block's range on its axis. -/
theorem mem_blk (t : Fin cfg7.N) (i : S100000x3.Idx) :
    i ∈ ((cfg7.win 4).blk t).view.set ↔ ∀ a : Fin 2, win7_4.index t a * S5000x3.size a ≤ (i a).val ∧ (i a).val < win7_4.index t a * S5000x3.size a + S5000x3.size a := by
  show i ∈ ((View.whole main_v82).slice (win7_4.rect t)).set ↔ _
  rw [View.set_slice_whole, Rect.mem_set_unit]
  exact Iff.rfl

/-- The 20 row blocks tile the 100000 rows, so the array the stage leaves is the whole-array function. -/
theorem final (c : Dev nD) : (dat7 V c).arrAt 4 cfg7.N = Gcn.decode (V c main_v79) (V c main_arg10) (V c main_v81) (V c main_v80) :=
  (dat7 V c).arrAt_eq_of_cover 4 (Gcn.decode (V c main_v79) (V c main_arg10) (V c main_v81) (V c main_v80)) (fun t _ => flushed_eq V c t) (fun i => by
    have hi0 : (i 0).val < 100000 := (i 0).isLt
    have hi1 : (i 1).val < 3 := (i 1).isLt
    have hN : cfg7.N = 20 := N_7
    refine ⟨⟨(i 0).val / 5000, by rw [hN]; omega⟩, flush7_4 _, ?_⟩
    rw [mem_blk]
    obtain ⟨-, -, -, -, -, -, -, -, e8, e9⟩ := idx_facts ⟨(i 0).val / 5000, by rw [hN]; omega⟩
    intro a
    match a with
    | ⟨0, _⟩ =>
      show win7_4.index _ 0 * 5000 ≤ (i 0).val ∧ (i 0).val < win7_4.index _ 0 * 5000 + 5000
      rw [e8]; show (i 0).val / 5000 * 5000 ≤ (i 0).val ∧ (i 0).val < (i 0).val / 5000 * 5000 + 5000; omega
    | ⟨1, _⟩ =>
      show win7_4.index _ 1 * 3 ≤ (i 1).val ∧ (i 1).val < win7_4.index _ 1 * 3 + 3
      rw [e9]; omega)

end Cert.KernelIdeal.Region7

end
-- ==== Proof.Chain.lean ====
/-
  The blocked program's result, stage by stage, is the reference network of the argument arrays.

  Between the launch and the return the program alternates stretches of whole-array operations with its eight blocked
  stages. Reading the memory at each boundary:
    * a buffer no later segment writes keeps its contents (the arguments; the edge lists `src`, `dst` and the edge
      normalisation `norm`, computed once before the first stage and read by every round of message passing);
    * a blocked stage leaves in its output array the whole-array function of its input arrays (the region modules);
    * a stretch of whole-array operations leaves in each buffer it writes the operations' value of the buffers it reads,
      and the stretches between the stages are, operation for operation, the reference's message passing `agg`, its
      bias rows and its mask column.
  So the result array is encoder, three graph layers, decoder — `Stages.out` — of the argument arrays (`result_eq`).
  The bias row reaches a blocked stage as a reshape of the bias vector to 1 × C where the reference broadcasts the
  vector to 1 × C: the same row (`row128_of_cast`, `row3_of_cast`).
-/
import proofs.«159549_j78486232367508_1_alg».proof.Proof.Gen.KernelIdeal.Frame
import proofs.«159549_j78486232367508_1_alg».proof.Proof.Region0
import proofs.«159549_j78486232367508_1_alg».proof.Proof.Region1
import proofs.«159549_j78486232367508_1_alg».proof.Proof.Region2
import proofs.«159549_j78486232367508_1_alg».proof.Proof.Region3
import proofs.«159549_j78486232367508_1_alg».proof.Proof.Region4
import proofs.«159549_j78486232367508_1_alg».proof.Proof.Region5
import proofs.«159549_j78486232367508_1_alg».proof.Proof.Region6
import proofs.«159549_j78486232367508_1_alg».proof.Proof.Region7
import proofs.«159549_j78486232367508_1_alg».proof.Proof.RefStages
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen
open Cert.ReferenceIdeal (Stages.src Stages.dst Stages.norm Stages.agg Stages.row128 Stages.row3 Stages.maskCol Stages.enc Stages.lin Stages.act Stages.dec Stages.out)

/-! ## The bias rows -/

/-- A vector recast as a one-row matrix is the vector broadcast along the new unit axis. -/
theorem row128_of_cast (b : FVec Ideal S128 .f32) (h : S128.ShapeCasts S1x128) :
    shapeCast S1x128 b h = Cert.ReferenceIdeal.Stages.row128 (F := Ideal) b := by
  funext i
  obtain ⟨u, j, rfl⟩ : ∃ (u : Fin 1) (j : Fin 128), i = ix2 u j := ⟨i 0, i 1, eq_ix2 i⟩
  rw [shapeCast_a_1a_apply]
  unfold Cert.ReferenceIdeal.Stages.row128
  exact (broadcastInDim_apply _ Cert.ReferenceIdeal.Gen.bcast_S128_S1x128_1 b (ix2 u j) (ix1 j) (fun a => match a with
    | ⟨0, _⟩ => by show j.val = if (128 : Nat) = 1 then 0 else j.val; rw [if_neg (by decide)])).symm

theorem row3_of_cast (b : FVec Ideal S3 .f32) (h : S3.ShapeCasts S1x3) :
    shapeCast S1x3 b h = Cert.ReferenceIdeal.Stages.row3 (F := Ideal) b := by
  funext i
  obtain ⟨u, j, rfl⟩ : ∃ (u : Fin 1) (j : Fin 3), i = ix2 u j := ⟨i 0, i 1, eq_ix2 i⟩
  rw [shapeCast_a_1a_apply]
  unfold Cert.ReferenceIdeal.Stages.row3
  exact (broadcastInDim_apply _ Cert.ReferenceIdeal.Gen.bcast_S3_S1x3_1 b (ix2 u j) (ix1 j) (fun a => match a with
    | ⟨0, _⟩ => by show j.val = if (3 : Nat) = 1 then 0 else j.val; rw [if_neg (by decide)])).symm

variable (m : (ℓ : Loc nD τ sig) → Buf (Elt Ideal) ℓ) (ρ : Dev nD → PrngReg) (c : Dev nD)

/-! ## Before the first stage: the edge lists, the edge normalisation, the encoder's bias row -/

/-- One stretch of whole-array operations, evaluated at a buffer. -/
macro "stretch" : tactic =>
  `(tactic| simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'])

theorem w1_src : W1 m ρ c (Proc.devRef .tc main_v3) = Cert.ReferenceIdeal.Stages.src (F := Ideal) (m ((c.tc : Thread nD τ).loc main_arg1)) := by
  stretch
  rfl
theorem w1_dst : W1 m ρ c (Proc.devRef .tc main_v6) = Cert.ReferenceIdeal.Stages.dst (F := Ideal) (m ((c.tc : Thread nD τ).loc main_arg1)) := by
  stretch
  rfl
theorem w1_pos : W1 m ρ c (Proc.devRef .tc main_v12) = cmpf (F := Ideal) .ogt (Cert.ReferenceIdeal.Stages.deg (m ((c.tc : Thread nD τ).loc main_arg1))) (broadcastInDim Cert.ReferenceIdeal.S100000 ![] Cert.ReferenceIdeal.Gen.bcast_S_S100000 (constant Cert.ReferenceIdeal.S_ .f32 0x00000000#32)) := by
  stretch
  rfl
theorem w1_rsqrt : W1 m ρ c (Proc.devRef .tc main_v13) = Host.rsqrt (F := Ideal) (φ := .f32) (Cert.ReferenceIdeal.Stages.deg (m ((c.tc : Thread nD τ).loc main_arg1))) := by
  stretch
  rfl
theorem w1_zero : W1 m ρ c (Proc.devRef .tc main_cst_2) = constant (F := Ideal) Cert.ReferenceIdeal.S_ .f32 0x00000000#32 := by
  stretch

/-- The `where` of the degree normalisation, from any memory: positive degree selects the inverse square root, else zero. -/
theorem where_eq (V : Valuation τ sig (Elt Ideal)) :
    StableHlo.after hostOps0_1 V (Proc.devRef .tc main_v14)
      = select (V (Proc.devRef .tc main_v12)) (V (Proc.devRef .tc main_v13)) (broadcastInDim S100000 ![] bcast_S_S100000 (id (V (Proc.devRef .tc main_cst_2)))) := by
  stretch
  rfl
theorem w2_dinv : W2 m ρ c (Proc.devRef .tc main_v14) = Cert.ReferenceIdeal.Stages.dinv (F := Ideal) (m ((c.tc : Thread nD τ).loc main_arg1)) := by
  refine (where_eq (W1 m ρ c)).trans ?_
  rw [w1_pos m ρ c, w1_rsqrt m ρ c, w1_zero m ρ c]
  rfl
theorem w2_src : W2 m ρ c (Proc.devRef .tc main_v3) = Cert.ReferenceIdeal.Stages.src (F := Ideal) (m ((c.tc : Thread nD τ).loc main_arg1)) := by
  have h := w1_src m ρ c
  show StableHlo.after hostOps0_1 (W1 m ρ c) (Proc.devRef .tc main_v3) = _
  generalize W1 m ρ c = V at h ⊢
  stretch
  exact h
theorem w2_dst : W2 m ρ c (Proc.devRef .tc main_v6) = Cert.ReferenceIdeal.Stages.dst (F := Ideal) (m ((c.tc : Thread nD τ).loc main_arg1)) := by
  have h := w1_dst m ρ c
  show StableHlo.after hostOps0_1 (W1 m ρ c) (Proc.devRef .tc main_v6) = _
  generalize W1 m ρ c = V at h ⊢
  stretch
  exact h
theorem w3_src : W3 m ρ c (Proc.devRef .tc main_v3) = Cert.ReferenceIdeal.Stages.src (F := Ideal) (m ((c.tc : Thread nD τ).loc main_arg1)) := by
  have h := w2_src m ρ c
  show StableHlo.after hostOps0_2 (W2 m ρ c) (Proc.devRef .tc main_v3) = _
  generalize W2 m ρ c = V at h ⊢
  stretch
  exact h
theorem w3_dst : W3 m ρ c (Proc.devRef .tc main_v6) = Cert.ReferenceIdeal.Stages.dst (F := Ideal) (m ((c.tc : Thread nD τ).loc main_arg1)) := by
  have h := w2_dst m ρ c
  show StableHlo.after hostOps0_2 (W2 m ρ c) (Proc.devRef .tc main_v6) = _
  generalize W2 m ρ c = V at h ⊢
  stretch
  exact h
theorem w3_norm : W3 m ρ c (Proc.devRef .tc main_v29) = Cert.ReferenceIdeal.Stages.norm (F := Ideal) (m ((c.tc : Thread nD τ).loc main_arg1)) := by
  have hd := w2_dinv m ρ c
  have hs := w2_src m ρ c
  have ht := w2_dst m ρ c
  show StableHlo.after hostOps0_2 (W2 m ρ c) (Proc.devRef .tc main_v29) = _
  generalize W2 m ρ c = V at hd hs ht ⊢
  stretch
  rw [hd, hs, ht]
  rfl

/-- The memory when the first blocked stage is entered. -/
def B3 : Valuation τ sig (Elt Ideal) := W3 m ρ c

theorem b3_src : B3 m ρ c (Proc.devRef .tc main_v3) = Cert.ReferenceIdeal.Stages.src (F := Ideal) (m ((c.tc : Thread nD τ).loc main_arg1)) := w3_src m ρ c
theorem b3_dst : B3 m ρ c (Proc.devRef .tc main_v6) = Cert.ReferenceIdeal.Stages.dst (F := Ideal) (m ((c.tc : Thread nD τ).loc main_arg1)) := w3_dst m ρ c
theorem b3_norm : B3 m ρ c (Proc.devRef .tc main_v29) = Cert.ReferenceIdeal.Stages.norm (F := Ideal) (m ((c.tc : Thread nD τ).loc main_arg1)) := w3_norm m ρ c
theorem b3_arg0 : B3 m ρ c (Proc.devRef .tc main_arg0) = (m ((c.tc : Thread nD τ).loc main_arg0)) := by
  unfold B3
  stretch
theorem b3_arg2 : B3 m ρ c (Proc.devRef .tc main_arg2) = (m ((c.tc : Thread nD τ).loc main_arg2)) := by
  unfold B3
  stretch
theorem b3_arg4 : B3 m ρ c (Proc.devRef .tc main_arg4) = (m ((c.tc : Thread nD τ).loc main_arg4)) := by
  unfold B3
  stretch
theorem b3_arg5 : B3 m ρ c (Proc.devRef .tc main_arg5) = (m ((c.tc : Thread nD τ).loc main_arg5)) := by
  unfold B3
  stretch
theorem b3_arg6 : B3 m ρ c (Proc.devRef .tc main_arg6) = (m ((c.tc : Thread nD τ).loc main_arg6)) := by
  unfold B3
  stretch
theorem b3_arg7 : B3 m ρ c (Proc.devRef .tc main_arg7) = (m ((c.tc : Thread nD τ).loc main_arg7)) := by
  unfold B3
  stretch
theorem b3_arg8 : B3 m ρ c (Proc.devRef .tc main_arg8) = (m ((c.tc : Thread nD τ).loc main_arg8)) := by
  unfold B3
  stretch
theorem b3_arg9 : B3 m ρ c (Proc.devRef .tc main_arg9) = (m ((c.tc : Thread nD τ).loc main_arg9)) := by
  unfold B3
  stretch
theorem b3_arg10 : B3 m ρ c (Proc.devRef .tc main_arg10) = (m ((c.tc : Thread nD τ).loc main_arg10)) := by
  unfold B3
  stretch
theorem b3_arg11 : B3 m ρ c (Proc.devRef .tc main_arg11) = (m ((c.tc : Thread nD τ).loc main_arg11)) := by
  unfold B3
  stretch
theorem b3_row : B3 m ρ c (Proc.devRef .tc main_v30) = Cert.ReferenceIdeal.Stages.row128 (F := Ideal) (m ((c.tc : Thread nD τ).loc main_arg3)) := by
  unfold B3
  stretch
  exact row128_of_cast _ _

/-! ## A blocked stage leaves every buffer that is not one of its arrays as it found it -/

theorem W4_kept (b : Ref sig .tc) (hb : ∀ w, Pipeline.arrRef spec0 w ≠ b) :
    W4 m ρ c (no_index (Proc.devRef .tc b)) = B3 m ρ c (Proc.devRef .tc b) := W4_of_ne m ρ c b hb
theorem W5_kept (b : Ref sig .tc) (hb : ∀ w, Pipeline.arrRef spec1 w ≠ b) :
    W5 m ρ c (no_index (Proc.devRef .tc b)) = W4 m ρ c (Proc.devRef .tc b) := W5_of_ne m ρ c b hb
theorem W7_kept (b : Ref sig .tc) (hb : ∀ w, Pipeline.arrRef spec2 w ≠ b) :
    W7 m ρ c (no_index (Proc.devRef .tc b)) = W6 m ρ c (Proc.devRef .tc b) := W7_of_ne m ρ c b hb
theorem W8_kept (b : Ref sig .tc) (hb : ∀ w, Pipeline.arrRef spec3 w ≠ b) :
    W8 m ρ c (no_index (Proc.devRef .tc b)) = W7 m ρ c (Proc.devRef .tc b) := W8_of_ne m ρ c b hb
theorem W10_kept (b : Ref sig .tc) (hb : ∀ w, Pipeline.arrRef spec4 w ≠ b) :
    W10 m ρ c (no_index (Proc.devRef .tc b)) = W9 m ρ c (Proc.devRef .tc b) := W10_of_ne m ρ c b hb
theorem W11_kept (b : Ref sig .tc) (hb : ∀ w, Pipeline.arrRef spec5 w ≠ b) :
    W11 m ρ c (no_index (Proc.devRef .tc b)) = W10 m ρ c (Proc.devRef .tc b) := W11_of_ne m ρ c b hb
theorem W13_kept (b : Ref sig .tc) (hb : ∀ w, Pipeline.arrRef spec6 w ≠ b) :
    W13 m ρ c (no_index (Proc.devRef .tc b)) = W12 m ρ c (Proc.devRef .tc b) := W13_of_ne m ρ c b hb
theorem W15_kept (b : Ref sig .tc) (hb : ∀ w, Pipeline.arrRef spec7 w ≠ b) :
    W15 m ρ c (no_index (Proc.devRef .tc b)) = W14 m ρ c (Proc.devRef .tc b) := W15_of_ne m ρ c b hb
/-- The encoder reads the node features and leaves them. -/
theorem W4_arg0 : W4 m ρ c (Proc.devRef .tc main_arg0) = B3 m ρ c (Proc.devRef .tc main_arg0) :=
  (W4_arr m ρ c 0).trans (((dat0 (V3 m ρ) c).arrAt_in 0 rfl _).trans (A_eq0 (V3 m ρ) c 0))

/-- Reads a buffer that no segment after the first stage's entry writes back to that entry: a stage that does not own the
    buffer is skipped, and so is a stretch of whole-array operations that does not write it. -/
macro "walk" : tactic =>
  `(tactic| simp (disch := decide) only [W4_kept, W5_kept, W7_kept, W8_kept, W10_kept, W11_kept, W13_kept, W15_kept,
      StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'])

/-! ## The stretches between the stages, from any memory -/

/-- A round of message passing reads the transformed features, the edge lists and the edge normalisation. -/
theorem agg2_eq (V : Valuation τ sig (Elt Ideal)) : StableHlo.after hostOps2 V (Proc.devRef .tc main_v45)
    = Cert.ReferenceIdeal.Stages.aggOf (F := Ideal) (V (Proc.devRef .tc main_v32)) (V (Proc.devRef .tc main_v3)) (V (Proc.devRef .tc main_v6)) (V (Proc.devRef .tc main_v29)) := by
  stretch
  rfl
theorem agg4_eq (V : Valuation τ sig (Elt Ideal)) : StableHlo.after hostOps4 V (Proc.devRef .tc main_v61)
    = Cert.ReferenceIdeal.Stages.aggOf (F := Ideal) (V (Proc.devRef .tc main_v48)) (V (Proc.devRef .tc main_v3)) (V (Proc.devRef .tc main_v6)) (V (Proc.devRef .tc main_v29)) := by
  stretch
  rfl
theorem agg6_eq (V : Valuation τ sig (Elt Ideal)) : StableHlo.after hostOps6 V (Proc.devRef .tc main_v77)
    = Cert.ReferenceIdeal.Stages.aggOf (F := Ideal) (V (Proc.devRef .tc main_v64)) (V (Proc.devRef .tc main_v3)) (V (Proc.devRef .tc main_v6)) (V (Proc.devRef .tc main_v29)) := by
  stretch
  rfl
/-- The same stretch recasts the layer's bias vector as a row. -/
theorem row2_eq (V : Valuation τ sig (Elt Ideal)) : StableHlo.after hostOps2 V (Proc.devRef .tc main_v46) = Cert.ReferenceIdeal.Stages.row128 (F := Ideal) (V (Proc.devRef .tc main_arg5)) := by
  stretch
  exact row128_of_cast _ _
theorem row4_eq (V : Valuation τ sig (Elt Ideal)) : StableHlo.after hostOps4 V (Proc.devRef .tc main_v62) = Cert.ReferenceIdeal.Stages.row128 (F := Ideal) (V (Proc.devRef .tc main_arg7)) := by
  stretch
  exact row128_of_cast _ _
theorem row6_eq (V : Valuation τ sig (Elt Ideal)) : StableHlo.after hostOps6 V (Proc.devRef .tc main_v78) = Cert.ReferenceIdeal.Stages.row128 (F := Ideal) (V (Proc.devRef .tc main_arg9)) := by
  stretch
  exact row128_of_cast _ _
/-- Before the decoder: the mask column cut out of the node features, the bias vector recast as a row. -/
theorem mask7_eq (V : Valuation τ sig (Elt Ideal)) : StableHlo.after hostOps7 V (Proc.devRef .tc main_v80) = Cert.ReferenceIdeal.Stages.maskCol (F := Ideal) (V (Proc.devRef .tc main_arg0)) := by
  stretch
  rfl
theorem row7_eq (V : Valuation τ sig (Elt Ideal)) : StableHlo.after hostOps7 V (Proc.devRef .tc main_v81) = Cert.ReferenceIdeal.Stages.row3 (F := Ideal) (V (Proc.devRef .tc main_arg11)) := by
  stretch
  exact row3_of_cast _ _
theorem kept7_h (V : Valuation τ sig (Elt Ideal)) : StableHlo.after hostOps7 V (Proc.devRef .tc main_v79) = V (Proc.devRef .tc main_v79) := by
  stretch

/-! ## The network, stage by stage -/

/-- The encoder's output. -/
def e0 : (⟨Cert.ReferenceIdeal.S100000x128, .f32⟩ : BufTy).Contents (Elt Ideal) := Cert.ReferenceIdeal.Stages.enc (F := Ideal) (m ((c.tc : Thread nD τ).loc main_arg0)) (m ((c.tc : Thread nD τ).loc main_arg2)) (Cert.ReferenceIdeal.Stages.row128 (m ((c.tc : Thread nD τ).loc main_arg3)))
/-- Layer 1: transformed, aggregated, activated. -/
def l1 : (⟨Cert.ReferenceIdeal.S100000x128, .f32⟩ : BufTy).Contents (Elt Ideal) := Cert.ReferenceIdeal.Stages.lin (F := Ideal) (e0 m c) (m ((c.tc : Thread nD τ).loc main_arg4))
def g1 : (⟨Cert.ReferenceIdeal.S100000x128, .f32⟩ : BufTy).Contents (Elt Ideal) := Cert.ReferenceIdeal.Stages.agg (F := Ideal) (l1 m c) (m ((c.tc : Thread nD τ).loc main_arg1))
def a1 : (⟨Cert.ReferenceIdeal.S100000x128, .f32⟩ : BufTy).Contents (Elt Ideal) := Cert.ReferenceIdeal.Stages.act (F := Ideal) (g1 m c) (Cert.ReferenceIdeal.Stages.row128 (m ((c.tc : Thread nD τ).loc main_arg5)))
/-- Layer 2. -/
def l2 : (⟨Cert.ReferenceIdeal.S100000x128, .f32⟩ : BufTy).Contents (Elt Ideal) := Cert.ReferenceIdeal.Stages.lin (F := Ideal) (a1 m c) (m ((c.tc : Thread nD τ).loc main_arg6))
def g2 : (⟨Cert.ReferenceIdeal.S100000x128, .f32⟩ : BufTy).Contents (Elt Ideal) := Cert.ReferenceIdeal.Stages.agg (F := Ideal) (l2 m c) (m ((c.tc : Thread nD τ).loc main_arg1))
def a2 : (⟨Cert.ReferenceIdeal.S100000x128, .f32⟩ : BufTy).Contents (Elt Ideal) := Cert.ReferenceIdeal.Stages.act (F := Ideal) (g2 m c) (Cert.ReferenceIdeal.Stages.row128 (m ((c.tc : Thread nD τ).loc main_arg7)))
/-- Layer 3. -/
def l3 : (⟨Cert.ReferenceIdeal.S100000x128, .f32⟩ : BufTy).Contents (Elt Ideal) := Cert.ReferenceIdeal.Stages.lin (F := Ideal) (a2 m c) (m ((c.tc : Thread nD τ).loc main_arg8))
def g3 : (⟨Cert.ReferenceIdeal.S100000x128, .f32⟩ : BufTy).Contents (Elt Ideal) := Cert.ReferenceIdeal.Stages.agg (F := Ideal) (l3 m c) (m ((c.tc : Thread nD τ).loc main_arg1))
def a3 : (⟨Cert.ReferenceIdeal.S100000x128, .f32⟩ : BufTy).Contents (Elt Ideal) := Cert.ReferenceIdeal.Stages.act (F := Ideal) (g3 m c) (Cert.ReferenceIdeal.Stages.row128 (m ((c.tc : Thread nD τ).loc main_arg9)))

/-- The encoder stage leaves the encoder's output. -/
theorem s_e0 : W4 m ρ c (Proc.devRef .tc main_v31) = e0 m c := by
  refine (W4_arr m ρ c 3).trans ?_
  rw [Region0.final (V3 m ρ) c]
  show Gcn.encode (B3 m ρ c (Proc.devRef .tc main_arg0)) (B3 m ρ c (Proc.devRef .tc main_arg2)) (B3 m ρ c (Proc.devRef .tc main_v30)) = _
  rw [b3_arg0 m ρ c, b3_arg2 m ρ c, b3_row m ρ c]
  exact (Cert.ReferenceIdeal.Stages.enc_eq _ _ _).symm

/-! ### Graph layer 1 -/

theorem k4_w1 : W4 m ρ c (Proc.devRef .tc main_arg4) = (m ((c.tc : Thread nD τ).loc main_arg4)) := by
  walk
  exact b3_arg4 m ρ c
/-- The dense transform. -/
theorem s_l1 : W5 m ρ c (Proc.devRef .tc main_v32) = l1 m c := by
  refine (W5_arr m ρ c 2).trans ?_
  rw [Region1.final (V4 m ρ) c]
  show Gcn.rowsTimes (W4 m ρ c (Proc.devRef .tc main_v31)) (W4 m ρ c (Proc.devRef .tc main_arg4)) = _
  rw [s_e0 m ρ c, k4_w1 m ρ c]
  exact (Cert.ReferenceIdeal.Stages.lin_eq _ _).symm
theorem k5_src : W5 m ρ c (Proc.devRef .tc main_v3) = Cert.ReferenceIdeal.Stages.src (F := Ideal) (m ((c.tc : Thread nD τ).loc main_arg1)) := by
  walk
  exact b3_src m ρ c
theorem k5_dst : W5 m ρ c (Proc.devRef .tc main_v6) = Cert.ReferenceIdeal.Stages.dst (F := Ideal) (m ((c.tc : Thread nD τ).loc main_arg1)) := by
  walk
  exact b3_dst m ρ c
theorem k5_norm : W5 m ρ c (Proc.devRef .tc main_v29) = Cert.ReferenceIdeal.Stages.norm (F := Ideal) (m ((c.tc : Thread nD τ).loc main_arg1)) := by
  walk
  exact b3_norm m ρ c
theorem k5_b1 : W5 m ρ c (Proc.devRef .tc main_arg5) = (m ((c.tc : Thread nD τ).loc main_arg5)) := by
  walk
  exact b3_arg5 m ρ c
/-- The round of message passing. -/
theorem s_g1 : W6 m ρ c (Proc.devRef .tc main_v45) = g1 m c := by
  refine (agg2_eq (W5 m ρ c)).trans ?_
  rw [s_l1 m ρ c, k5_src m ρ c, k5_dst m ρ c, k5_norm m ρ c]
  rfl
theorem s_r1 : W6 m ρ c (Proc.devRef .tc main_v46) = Cert.ReferenceIdeal.Stages.row128 (F := Ideal) (m ((c.tc : Thread nD τ).loc main_arg5)) := by
  refine (row2_eq (W5 m ρ c)).trans ?_
  rw [k5_b1 m ρ c]
/-- Bias and relu. -/
theorem s_a1 : W7 m ρ c (Proc.devRef .tc main_v47) = a1 m c := by
  refine (W7_arr m ρ c 2).trans ?_
  rw [Region2.final (V6 m ρ) c]
  show Gcn.addRowRelu (W6 m ρ c (Proc.devRef .tc main_v45)) (W6 m ρ c (Proc.devRef .tc main_v46)) = _
  rw [s_g1 m ρ c, s_r1 m ρ c]
  exact (Cert.ReferenceIdeal.Stages.act_eq _ _).symm

/-! ### Graph layer 2 -/

theorem k7_w2 : W7 m ρ c (Proc.devRef .tc main_arg6) = (m ((c.tc : Thread nD τ).loc main_arg6)) := by
  walk
  exact b3_arg6 m ρ c
/-- The dense transform. -/
theorem s_l2 : W8 m ρ c (Proc.devRef .tc main_v48) = l2 m c := by
  refine (W8_arr m ρ c 2).trans ?_
  rw [Region3.final (V7 m ρ) c]
  show Gcn.rowsTimes (W7 m ρ c (Proc.devRef .tc main_v47)) (W7 m ρ c (Proc.devRef .tc main_arg6)) = _
  rw [s_a1 m ρ c, k7_w2 m ρ c]
  exact (Cert.ReferenceIdeal.Stages.lin_eq _ _).symm
theorem k8_src : W8 m ρ c (Proc.devRef .tc main_v3) = Cert.ReferenceIdeal.Stages.src (F := Ideal) (m ((c.tc : Thread nD τ).loc main_arg1)) := by
  walk
  exact b3_src m ρ c
theorem k8_dst : W8 m ρ c (Proc.devRef .tc main_v6) = Cert.ReferenceIdeal.Stages.dst (F := Ideal) (m ((c.tc : Thread nD τ).loc main_arg1)) := by
  walk
  exact b3_dst m ρ c
theorem k8_norm : W8 m ρ c (Proc.devRef .tc main_v29) = Cert.ReferenceIdeal.Stages.norm (F := Ideal) (m ((c.tc : Thread nD τ).loc main_arg1)) := by
  walk
  exact b3_norm m ρ c
theorem k8_b2 : W8 m ρ c (Proc.devRef .tc main_arg7) = (m ((c.tc : Thread nD τ).loc main_arg7)) := by
  walk
  exact b3_arg7 m ρ c
/-- The round of message passing. -/
theorem s_g2 : W9 m ρ c (Proc.devRef .tc main_v61) = g2 m c := by
  refine (agg4_eq (W8 m ρ c)).trans ?_
  rw [s_l2 m ρ c, k8_src m ρ c, k8_dst m ρ c, k8_norm m ρ c]
  rfl
theorem s_r2 : W9 m ρ c (Proc.devRef .tc main_v62) = Cert.ReferenceIdeal.Stages.row128 (F := Ideal) (m ((c.tc : Thread nD τ).loc main_arg7)) := by
  refine (row4_eq (W8 m ρ c)).trans ?_
  rw [k8_b2 m ρ c]
/-- Bias and relu. -/
theorem s_a2 : W10 m ρ c (Proc.devRef .tc main_v63) = a2 m c := by
  refine (W10_arr m ρ c 2).trans ?_
  rw [Region4.final (V9 m ρ) c]
  show Gcn.addRowRelu (W9 m ρ c (Proc.devRef .tc main_v61)) (W9 m ρ c (Proc.devRef .tc main_v62)) = _
  rw [s_g2 m ρ c, s_r2 m ρ c]
  exact (Cert.ReferenceIdeal.Stages.act_eq _ _).symm

/-! ### Graph layer 3 -/

theorem k10_w3 : W10 m ρ c (Proc.devRef .tc main_arg8) = (m ((c.tc : Thread nD τ).loc main_arg8)) := by
  walk
  exact b3_arg8 m ρ c
/-- The dense transform. -/
theorem s_l3 : W11 m ρ c (Proc.devRef .tc main_v64) = l3 m c := by
  refine (W11_arr m ρ c 2).trans ?_
  rw [Region5.final (V10 m ρ) c]
  show Gcn.rowsTimes (W10 m ρ c (Proc.devRef .tc main_v63)) (W10 m ρ c (Proc.devRef .tc main_arg8)) = _
  rw [s_a2 m ρ c, k10_w3 m ρ c]
  exact (Cert.ReferenceIdeal.Stages.lin_eq _ _).symm
theorem k11_src : W11 m ρ c (Proc.devRef .tc main_v3) = Cert.ReferenceIdeal.Stages.src (F := Ideal) (m ((c.tc : Thread nD τ).loc main_arg1)) := by
  walk
  exact b3_src m ρ c
theorem k11_dst : W11 m ρ c (Proc.devRef .tc main_v6) = Cert.ReferenceIdeal.Stages.dst (F := Ideal) (m ((c.tc : Thread nD τ).loc main_arg1)) := by
  walk
  exact b3_dst m ρ c
theorem k11_norm : W11 m ρ c (Proc.devRef .tc main_v29) = Cert.ReferenceIdeal.Stages.norm (F := Ideal) (m ((c.tc : Thread nD τ).loc main_arg1)) := by
  walk
  exact b3_norm m ρ c
theorem k11_b3 : W11 m ρ c (Proc.devRef .tc main_arg9) = (m ((c.tc : Thread nD τ).loc main_arg9)) := by
  walk
  exact b3_arg9 m ρ c
/-- The round of message passing. -/
theorem s_g3 : W12 m ρ c (Proc.devRef .tc main_v77) = g3 m c := by
  refine (agg6_eq (W11 m ρ c)).trans ?_
  rw [s_l3 m ρ c, k11_src m ρ c, k11_dst m ρ c, k11_norm m ρ c]
  rfl
theorem s_r3 : W12 m ρ c (Proc.devRef .tc main_v78) = Cert.ReferenceIdeal.Stages.row128 (F := Ideal) (m ((c.tc : Thread nD τ).loc main_arg9)) := by
  refine (row6_eq (W11 m ρ c)).trans ?_
  rw [k11_b3 m ρ c]
/-- Bias and relu. -/
theorem s_a3 : W13 m ρ c (Proc.devRef .tc main_v79) = a3 m c := by
  refine (W13_arr m ρ c 2).trans ?_
  rw [Region6.final (V12 m ρ) c]
  show Gcn.addRowRelu (W12 m ρ c (Proc.devRef .tc main_v77)) (W12 m ρ c (Proc.devRef .tc main_v78)) = _
  rw [s_g3 m ρ c, s_r3 m ρ c]
  exact (Cert.ReferenceIdeal.Stages.act_eq _ _).symm

/-! ### The decoder -/

theorem k13_x : W13 m ρ c (Proc.devRef .tc main_arg0) = (m ((c.tc : Thread nD τ).loc main_arg0)) := by
  walk
  exact (W4_arg0 m ρ c).trans (b3_arg0 m ρ c)
theorem k13_b : W13 m ρ c (Proc.devRef .tc main_arg11) = (m ((c.tc : Thread nD τ).loc main_arg11)) := by
  walk
  exact b3_arg11 m ρ c
theorem k14_w : W14 m ρ c (Proc.devRef .tc main_arg10) = (m ((c.tc : Thread nD τ).loc main_arg10)) := by
  walk
  exact b3_arg10 m ρ c
theorem k14_h : W14 m ρ c (Proc.devRef .tc main_v79) = a3 m c := (kept7_h (W13 m ρ c)).trans (s_a3 m ρ c)
theorem k14_mask : W14 m ρ c (Proc.devRef .tc main_v80) = Cert.ReferenceIdeal.Stages.maskCol (F := Ideal) (m ((c.tc : Thread nD τ).loc main_arg0)) := by
  refine (mask7_eq (W13 m ρ c)).trans ?_
  rw [k13_x m ρ c]
theorem k14_row : W14 m ρ c (Proc.devRef .tc main_v81) = Cert.ReferenceIdeal.Stages.row3 (F := Ideal) (m ((c.tc : Thread nD τ).loc main_arg11)) := by
  refine (row7_eq (W13 m ρ c)).trans ?_
  rw [k13_b m ρ c]

/-- THE RESULT: the array the blocked program returns is the reference network of the argument arrays. -/
theorem result_eq : W15 m ρ c (Proc.devRef .tc main_v82)
    = Cert.ReferenceIdeal.Stages.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W15_arr m ρ c 4).trans ?_
  rw [Region7.final (V14 m ρ) c]
  show Gcn.decode (W14 m ρ c (Proc.devRef .tc main_v79)) (W14 m ρ c (Proc.devRef .tc main_arg10)) (W14 m ρ c (Proc.devRef .tc main_v81)) (W14 m ρ c (Proc.devRef .tc main_v80)) = _
  rw [k14_h m ρ c, k14_w m ρ c, k14_row m ρ c, k14_mask m ρ c]
  exact (Cert.ReferenceIdeal.Stages.dec_eq _ _ _ _).symm

end Cert.KernelIdeal.Chain

end
-- ==== Proof.lean ====
/-
  A three-layer graph convolutional network over 100000 nodes and 1.6 million edges, computed two ways, gives the same
  result over the extended reals.

  Both programs build the edge lists with self-loops and the symmetric degree normalisation from the edge index with
  the same whole-array operations, and both apply, in the same order: the encoder max(x · W + b, 0); three graph layers,
  each a dense transform h · wₗ, a round of message passing (gather at the sources, scale by the edge normalisation, add
  up at the destinations) and max(· + bₗ, 0); and the decoder (h · W' + b') · (1 − mask), the mask being column 3 of x.
  The reference computes every dense stage on whole arrays. The other program computes each dense stage 5000 rows at a
  time, narrowing the operands of its matrix products to a shorter float format first. Over the extended reals the
  narrowing is the identity, a matrix product is the sum over the contracted axis whichever way it is scheduled, and each
  dense stage acts on every row by itself, so a stage computed block of rows by block of rows leaves the same array as the
  stage computed at once (the region modules). The operations between the dense stages are the same in both programs
  (the chain module). Hence the two results are the same function — `Stages.out` — of the same arguments. No algebraic
  law beyond this is used, and finiteness of the inputs is not needed.

  The three frame claims: the blocked program's and its word-level original's runs terminate without fault and leave the
  arguments as they were; the reference's run does too (its run with the result dropped). The idealisation rewrote no
  operation, so there is nothing to preserve.
-/
import proofs.«159549_j78486232367508_1_alg».proof.Defs
import proofs.«159549_j78486232367508_1_alg».proof.Proof.Gen.Kernel
import proofs.«159549_j78486232367508_1_alg».proof.Proof.Gen.Kernel.Skeleton
import proofs.«159549_j78486232367508_1_alg».proof.Proof.Gen.Kernel.Launch
import proofs.«159549_j78486232367508_1_alg».proof.Proof.Gen.Kernel.Points
import proofs.«159549_j78486232367508_1_alg».proof.Proof.Gen.Kernel.Frame
import proofs.«159549_j78486232367508_1_alg».proof.Proof.Gen.KernelIdeal
import proofs.«159549_j78486232367508_1_alg».proof.Proof.Gen.KernelIdeal.Skeleton
import proofs.«159549_j78486232367508_1_alg».proof.Proof.Gen.KernelIdeal.Launch
import proofs.«159549_j78486232367508_1_alg».proof.Proof.Gen.KernelIdeal.Points
import proofs.«159549_j78486232367508_1_alg».proof.Proof.Gen.KernelIdeal.Frame
import proofs.«159549_j78486232367508_1_alg».proof.Proof.Gen.ReferenceIdeal
import proofs.«159549_j78486232367508_1_alg».proof.Proof.Gen.Pre_finite_inputs
import proofs.«159549_j78486232367508_1_alg».proof.Proof.RefRunPatched
import proofs.«159549_j78486232367508_1_alg».proof.Proof.RefStages
import proofs.«159549_j78486232367508_1_alg».proof.Proof.RunValue
import proofs.«159549_j78486232367508_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- Both runs end with the result array at the network `Stages.out` of the argument arrays: the blocked program's by the
    chain of its stages, the reference's by unfolding its result term; the arguments agree. -/
theorem algebraic : Cert.algebraic_KernelIdeal_ReferenceIdeal := by
  intro m ρ m' ρ' _ hagree
  refine ⟨fun c => Cert.KernelIdeal.Gen.W15 m ρ c (Proc.devRef .tc Cert.KernelIdeal.main_v82),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  show Cert.ReferenceIdeal.ValueP.res_main_v97 m' c = Cert.KernelIdeal.Gen.W15 m ρ c (Proc.devRef .tc Cert.KernelIdeal.main_v82)
  rw [Cert.ReferenceIdeal.Stages.res_eq, Cert.KernelIdeal.Chain.result_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
